-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1000x512 : Shape := ⟨2, ![1000, 512]⟩
abbrev S1000 : Shape := ⟨1, ![1000]⟩
abbrev S_ : Shape := ⟨0, ![]⟩
abbrev S4096x128 : Shape := ⟨2, ![4096, 128]⟩
abbrev S10x128 : Shape := ⟨2, ![10, 128]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  reducesTo_S_S_d : S_.ReducesTo [] S_
  bcast_S_S4096x128 : S_.BroadcastsInDim S4096x128 (![] : Fin 0 → Fin S4096x128.rank)
  reducesTo_S4096x128_S_d0_1 : S4096x128.ReducesTo [0, 1] S_
  bcast_S_S10x128 : S_.BroadcastsInDim S10x128 (![] : Fin 0 → Fin S10x128.rank)
  reducesTo_S10x128_S_d0_1 : S10x128.ReducesTo [0, 1] S_

variable [Facts]

def fn_part1 {F : FTy → Type} [FloatOps F] (main_v12 : IVec S_ 1) (main_v15 : IVec S10x128 1) (main_c_5 : IVec S_ 1) : IVec S_ 1 :=
  let main_v16 : IVec S_ 1 := (fun x v => Host.reduce IntOp.andi x v reducesTo_S10x128_S_d0_1 h_S_) main_v15 main_c_5
  let main_v17 : IVec S_ 1 := andi main_v12 main_v16
  main_v17

def fn {F : FTy → Type} [FloatOps F] (main_arg0 : FVec F S4096x4096 .f32) (main_arg1 : IVec S1000x512 32) (main_arg2 : IVec S1000 32) (main_arg3 : FVec F S_ .f32) (main_arg4 : FVec F S4096x128 .f32) (main_arg5 : FVec F S10x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S_ .f32 := Host.absf main_arg3
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S4096x128 .f32 := Host.absf main_arg4
  let main_cst_2 : FVec F S_ .f32 := constant S_ .f32 0x7F800000#32
  let main_v9 : FVec F S4096x128 .f32 := broadcastInDim S4096x128 ![] bcast_S_S4096x128 main_cst_2
  let main_v10 : IVec S4096x128 1 := cmpf .olt main_v8 main_v9
  let main_c_3 : IVec S_ 1 := constantI S_ 1 1#1
  let main_v11 : IVec S_ 1 := (fun x v => Host.reduce IntOp.andi x v reducesTo_S4096x128_S_d0_1 h_S_) main_v10 main_c_3
  let main_v12 : IVec S_ 1 := andi main_v7 main_v11
  let main_v13 : FVec F S10x128 .f32 := Host.absf main_arg5
  let main_cst_4 : FVec F S_ .f32 := constant S_ .f32 0x7F800000#32
  let main_v14 : FVec F S10x128 .f32 := broadcastInDim S10x128 ![] bcast_S_S10x128 main_cst_4
  let main_v15 : IVec S10x128 1 := cmpf .olt main_v13 main_v14
  let main_c_5 : IVec S_ 1 := constantI S_ 1 1#1
  fn_part1 (F := F) main_v12 main_v15 main_c_5
-- ==== Kernel.lean ====
abbrev S4096x4096 : Shape := ⟨2, ![4096, 4096]⟩
abbrev S1000x512 : Shape := ⟨2, ![1000, 512]⟩
abbrev S1000 : Shape := ⟨1, ![1000]⟩
abbrev S_ : Shape := ⟨0, ![]⟩
abbrev S4096x128 : Shape := ⟨2, ![4096, 128]⟩
abbrev S10x128 : Shape := ⟨2, ![10, 128]⟩
abbrev S128x4096 : Shape := ⟨2, ![128, 4096]⟩
abbrev S1x1 : Shape := ⟨2, ![1, 1]⟩
abbrev S1024x1024 : Shape := ⟨2, ![1024, 1024]⟩
abbrev S1024x128 : Shape := ⟨2, ![1024, 128]⟩
abbrev S128x1024 : Shape := ⟨2, ![128, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1000x4096 : Shape := ⟨2, ![1000, 4096]⟩
abbrev S1000x1 : Shape := ⟨2, ![1000, 1]⟩
abbrev S1000x512x1 : Shape := ⟨3, ![1000, 512, 1]⟩
abbrev S1000x512x2 : Shape := ⟨3, ![1000, 512, 2]⟩
abbrev S1000x128 : Shape := ⟨2, ![1000, 128]⟩
abbrev S128x10 : Shape := ⟨2, ![128, 10]⟩
abbrev S1000x10 : Shape := ⟨2, ![1000, 10]⟩
abbrev S1000x2 : Shape := ⟨2, ![1000, 2]⟩

abbrev nBuf : Space → Nat
  | .hbm => 82
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S1000x512, .i32⟩
  | .hbm, ⟨2, _⟩ => ⟨S1000, .i32⟩
  | .hbm, ⟨3, _⟩ => ⟨S_, .f32⟩
  | .hbm, ⟨4, _⟩ => ⟨S4096x128, .f32⟩
  | .hbm, ⟨5, _⟩ => ⟨S10x128, .f32⟩
  | .hbm, ⟨6, _⟩ => ⟨S128x4096, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1000x4096, .f32⟩
  | .hbm, ⟨14, _⟩ => ⟨S1000, .i32⟩
  | .hbm, ⟨15, _⟩ => ⟨S1000x1, .i32⟩
  | .hbm, ⟨16, _⟩ => ⟨S_, .i32⟩
  | .hbm, ⟨17, _⟩ => ⟨S1000x1, .i32⟩
  | .hbm, ⟨18, _⟩ => ⟨S1000x1, .i1⟩
  | .hbm, ⟨19, _⟩ => ⟨S_, .i32⟩
  | .hbm, ⟨20, _⟩ => ⟨S1000x1, .i32⟩
  | .hbm, ⟨21, _⟩ => ⟨S1000x1, .i32⟩
  | .hbm, ⟨22, _⟩ => ⟨S1000x1, .i32⟩
  | .hbm, ⟨23, _⟩ => ⟨S_, .i32⟩
  | .hbm, ⟨24, _⟩ => ⟨S1000x512, .i32⟩
  | .hbm, ⟨25, _⟩ => ⟨S1000x512, .i1⟩
  | .hbm, ⟨26, _⟩ => ⟨S_, .i32⟩
  | .hbm, ⟨27, _⟩ => ⟨S1000x512, .i32⟩
  | .hbm, ⟨28, _⟩ => ⟨S1000x512, .i32⟩
  | .hbm, ⟨29, _⟩ => ⟨S1000x512, .i32⟩
  | .hbm, ⟨30, _⟩ => ⟨S1000x512, .i32⟩
  | .hbm, ⟨31, _⟩ => ⟨S1000x512x1, .i32⟩
  | .hbm, ⟨32, _⟩ => ⟨S1000x512x1, .i32⟩
  | .hbm, ⟨33, _⟩ => ⟨S1000x512x2, .i32⟩
  | .hbm, ⟨34, _⟩ => ⟨S_, .f32⟩
  | .hbm, ⟨35, _⟩ => ⟨S1000x512, .f32⟩
  | .hbm, ⟨36, _⟩ => ⟨S1000x4096, .f32⟩
  | .hbm, ⟨37, _⟩ => ⟨S1000x128, .f32⟩
  | .hbm, ⟨38, _⟩ => ⟨S128x10, .f32⟩
  | .hbm, ⟨39, _⟩ => ⟨S1000x10, .f32⟩
  | .hbm, ⟨40, _⟩ => ⟨S_, .f32⟩
  | .hbm, ⟨41, _⟩ => ⟨S1000, .f32⟩
  | .hbm, ⟨42, _⟩ => ⟨S_, .f32⟩
  | .hbm, ⟨43, _⟩ => ⟨S1000, .f32⟩
  | .hbm, ⟨44, _⟩ => ⟨S1000, .f32⟩
  | .hbm, ⟨45, _⟩ => ⟨S1000x1, .f32⟩
  | .hbm, ⟨46, _⟩ => ⟨S1000x10, .f32⟩
  | .hbm, ⟨47, _⟩ => ⟨S1000x10, .f32⟩
  | .hbm, ⟨48, _⟩ => ⟨S1000x10, .f32⟩
  | .hbm, ⟨49, _⟩ => ⟨S_, .f32⟩
  | .hbm, ⟨50, _⟩ => ⟨S1000, .f32⟩
  | .hbm, ⟨51, _⟩ => ⟨S1000x1, .f32⟩
  | .hbm, ⟨52, _⟩ => ⟨S1000x1, .f32⟩
  | .hbm, ⟨53, _⟩ => ⟨S1000x10, .f32⟩
  | .hbm, ⟨54, _⟩ => ⟨S1000x10, .f32⟩
  | .hbm, ⟨55, _⟩ => ⟨S1000, .i32⟩
  | .hbm, ⟨56, _⟩ => ⟨S_, .i32⟩
  | .hbm, ⟨57, _⟩ => ⟨S1000, .i32⟩
  | .hbm, ⟨58, _⟩ => ⟨S1000, .i1⟩
  | .hbm, ⟨59, _⟩ => ⟨S_, .i32⟩
  | .hbm, ⟨60, _⟩ => ⟨S1000, .i32⟩
  | .hbm, ⟨61, _⟩ => ⟨S1000, .i32⟩
  | .hbm, ⟨62, _⟩ => ⟨S1000, .i32⟩
  | .hbm, ⟨63, _⟩ => ⟨S_, .i32⟩
  | .hbm, ⟨64, _⟩ => ⟨S1000, .i32⟩
  | .hbm, ⟨65, _⟩ => ⟨S1000, .i1⟩
  | .hbm, ⟨66, _⟩ => ⟨S_, .i32⟩
  | .hbm, ⟨67, _⟩ => ⟨S1000, .i32⟩
  | .hbm, ⟨68, _⟩ => ⟨S1000, .i32⟩
  | .hbm, ⟨69, _⟩ => ⟨S1000, .i32⟩
  | .hbm, ⟨70, _⟩ => ⟨S1000x1, .i32⟩
  | .hbm, ⟨71, _⟩ => ⟨S1000x1, .i32⟩
  | .hbm, ⟨72, _⟩ => ⟨S1000x2, .i32⟩
  | .hbm, ⟨73, _⟩ => ⟨S1000, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S128x1024, .f32⟩
  | .local _ .vmem, ⟨5, _⟩ => ⟨S128x1024, .f32⟩
  | .local _ .vmem, ⟨6, _⟩ => ⟨S1x1, .f32⟩
  | .local _ .vmem, ⟨7, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_call0_cst_0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_cst_1 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_v27 : Ref sig .tc := ⟨.hbm, 54, rfl⟩
abbrev main_v28 : Ref sig .tc := ⟨.hbm, 55, rfl⟩
abbrev main_c_5 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg0 : BitVec 32 := BitVec.ofNat 32 (i 0).val
  let c3_i32 : BitVec 32 := 3#32
  let v49 : BitVec 1 := Scalar.cmpi .eq arg0 c3_i32
  let arg1 : BitVec 32 := BitVec.ofNat 32 (i 1).val
  let c3_i32_22 : BitVec 32 := 3#32
  let v50 : BitVec 1 := Scalar.cmpi .eq arg1 c3_i32_22
  let v51 : BitVec 1 := Scalar.andi v49 v50
  let v52 : BitVec 32 := Scalar.extui v51
  let c0_i32_23 : BitVec 32 := 0#32
  let v53 : BitVec 1 := Scalar.cmpi .ne v52 c0_i32_23
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  transposes_S4096x128_S128x4096_1_0 : S4096x128.Transposes [1, 0] S128x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  bitsLt_bf16_f32 : FTy.bits .bf16 < FTy.bits .f32
  reduces_S1024x128_S1024 : S1024x128.Reduces [1] S1024
  shapeCasts_S1024_S1024x1 : S1024.ShapeCasts S1024x1
  reduces_S128x1024_S1024 : S128x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  reduces_S1024x1_S1 : S1024x1.Reduces [0] S1
  shapeCasts_S1_S1x1 : S1.ShapeCasts S1x1
  shapeCasts_S1x1_S_ : S1x1.ShapeCasts S_
  bcast_S_S1000x4096 : S_.BroadcastsInDim S1000x4096 (![] : Fin 0 → Fin S1000x4096.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S_S1000x512 : S_.BroadcastsInDim S1000x512 (![] : Fin 0 → Fin S1000x512.rank)
  bcast_S1000x1_S1000x512_0_1 : S1000x1.BroadcastsInDim S1000x512 (![0, 1] : Fin 2 → Fin S1000x512.rank)
  bcast_S1000x512_S1000x512x1_0_1 : S1000x512.BroadcastsInDim S1000x512x1 (![0, 1] : Fin 2 → Fin S1000x512x1.rank)
  concatenates_S1000x512x1_S1000x512x1_S1000x512x2_d2 : Shape.Concatenates [S1000x512x1, S1000x512x1] S1000x512x2 2
  transposes_S10x128_S128x10_1_0 : S10x128.Transposes [1, 0] S128x10
  reducesTo_S1000x10_S1000_d1 : S1000x10.ReducesTo [1] S1000
  h_S_ : 0 < S_.numel
  bcast_S_S1000 : S_.BroadcastsInDim S1000 (![] : Fin 0 → Fin S1000.rank)
  bcast_S1000x1_S1000x10_0_1 : S1000x1.BroadcastsInDim S1000x10 (![0, 1] : Fin 2 → Fin S1000x10.rank)
  concatenates_S1000x1_S1000x1_S1000x2_d1 : Shape.Concatenates [S1000x1, S1000x1] S1000x2 1
  reducesTo_S1000_S_d0 : S1000.ReducesTo [0] S_
  dot_S1024x128_S128x1024_S1024x1024_1_0_0_1_n_n_wf : DotDims.WF S1024x128 S128x1024 S1024x1024 [1] [0] [0] [1] [] []
  scatter_S1000x4096_S1000x512x2_S1000x512_n_01_01_2_wf : ScatterDims.WF S1000x4096 S1000x512x2 S1000x512 [] [0, 1] [0, 1] 2
  dot_S1000x4096_S4096x128_S1000x128_1_0_0_1_n_n_wf : DotDims.WF S1000x4096 S4096x128 S1000x128 [1] [0] [0] [1] [] []
  dot_S1000x128_S128x10_S1000x10_1_0_0_1_n_n_wf : DotDims.WF S1000x128 S128x10 S1000x10 [1] [0] [0] [1] [] []
  gather_S1000x10_S1000x2_S1000_n_01_n_n_01_1_11_wf : GatherDims.WF S1000x10 S1000x2 S1000 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .f32 = 32 ∨ (Rect.block (s := S128x4096) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def scatter_S1000x4096_S1000x512x2_S1000x512_n_01_01_2 : ScatterDims S1000x4096 S1000x512x2 S1000x512 where
  updateWindowDims := []
  insertedWindowDims := [0, 1]
  scatterDimsToOperandDims := [0, 1]
  indexVectorDim := 2
  wf := scatter_S1000x4096_S1000x512x2_S1000x512_n_01_01_2_wf
def dot_S1000x4096_S4096x128_S1000x128_1_0_0_1_n_n : DotDims S1000x4096 S4096x128 S1000x128 where
  lhsContracting := [1]
  rhsContracting := [0]
  lhsNonContracting := [0]
  rhsNonContracting := [1]
  lhsBatch := []
  rhsBatch := []
  wf := dot_S1000x4096_S4096x128_S1000x128_1_0_0_1_n_n_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf
def gather_S1000x10_S1000x2_S1000_n_01_n_n_01_1_11 : GatherDims S1000x10 S1000x2 S1000 where
  offsetDims := []
  collapsedSliceDims := [0, 1]
  operandBatchingDims := []
  startIndicesBatchingDims := []
  startIndexMap := [0, 1]
  indexVectorDim := 1
  sliceSizes := ![1, 1]
  wf := gather_S1000x10_S1000x2_S1000_n_01_n_n_01_1_11_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1000x512 : Shape := ⟨2, ![1000, 512]⟩
abbrev S1000 : Shape := ⟨1, ![1000]⟩
abbrev S_ : Shape := ⟨0, ![]⟩
abbrev S4096x128 : Shape := ⟨2, ![4096, 128]⟩
abbrev S10x128 : Shape := ⟨2, ![10, 128]⟩
abbrev S1000x4096 : Shape := ⟨2, ![1000, 4096]⟩
abbrev S1000x1 : Shape := ⟨2, ![1000, 1]⟩
abbrev S1000x512x1 : Shape := ⟨3, ![1000, 512, 1]⟩
abbrev S1000x512x2 : Shape := ⟨3, ![1000, 512, 2]⟩
abbrev S1000x128 : Shape := ⟨2, ![1000, 128]⟩
abbrev S128x10 : Shape := ⟨2, ![128, 10]⟩
abbrev S1000x10 : Shape := ⟨2, ![1000, 10]⟩
abbrev S1000x2 : Shape := ⟨2, ![1000, 2]⟩
abbrev S4096 : Shape := ⟨1, ![4096]⟩
abbrev S4096x1 : Shape := ⟨2, ![4096, 1]⟩
abbrev S1x4096 : Shape := ⟨2, ![1, 4096]⟩
abbrev S128x4096 : Shape := ⟨2, ![128, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1000x512, .i32⟩
  | .hbm, ⟨2, _⟩ => ⟨S1000, .i32⟩
  | .hbm, ⟨3, _⟩ => ⟨S_, .f32⟩
  | .hbm, ⟨4, _⟩ => ⟨S4096x128, .f32⟩
  | .hbm, ⟨5, _⟩ => ⟨S10x128, .f32⟩
  | .hbm, ⟨6, _⟩ => ⟨S_, .f32⟩
  | .hbm, ⟨7, _⟩ => ⟨S1000x4096, .f32⟩
  | .hbm, ⟨8, _⟩ => ⟨S1000, .i32⟩
  | .hbm, ⟨9, _⟩ => ⟨S1000x1, .i32⟩
  | .hbm, ⟨10, _⟩ => ⟨S_, .i32⟩
  | .hbm, ⟨11, _⟩ => ⟨S1000x1, .i32⟩
  | .hbm, ⟨12, _⟩ => ⟨S1000x1, .i1⟩
  | .hbm, ⟨13, _⟩ => ⟨S_, .i32⟩
  | .hbm, ⟨14, _⟩ => ⟨S1000x1, .i32⟩
  | .hbm, ⟨15, _⟩ => ⟨S1000x1, .i32⟩
  | .hbm, ⟨16, _⟩ => ⟨S1000x1, .i32⟩
  | .hbm, ⟨17, _⟩ => ⟨S_, .i32⟩
  | .hbm, ⟨18, _⟩ => ⟨S1000x512, .i32⟩
  | .hbm, ⟨19, _⟩ => ⟨S1000x512, .i1⟩
  | .hbm, ⟨20, _⟩ => ⟨S_, .i32⟩
  | .hbm, ⟨21, _⟩ => ⟨S1000x512, .i32⟩
  | .hbm, ⟨22, _⟩ => ⟨S1000x512, .i32⟩
  | .hbm, ⟨23, _⟩ => ⟨S1000x512, .i32⟩
  | .hbm, ⟨24, _⟩ => ⟨S1000x512, .i32⟩
  | .hbm, ⟨25, _⟩ => ⟨S1000x512x1, .i32⟩
  | .hbm, ⟨26, _⟩ => ⟨S1000x512x1, .i32⟩
  | .hbm, ⟨27, _⟩ => ⟨S1000x512x2, .i32⟩
  | .hbm, ⟨28, _⟩ => ⟨S_, .f32⟩
  | .hbm, ⟨29, _⟩ => ⟨S1000x512, .f32⟩
  | .hbm, ⟨30, _⟩ => ⟨S1000x4096, .f32⟩
  | .hbm, ⟨31, _⟩ => ⟨S1000x128, .f32⟩
  | .hbm, ⟨32, _⟩ => ⟨S128x10, .f32⟩
  | .hbm, ⟨33, _⟩ => ⟨S1000x10, .f32⟩
  | .hbm, ⟨34, _⟩ => ⟨S_, .f32⟩
  | .hbm, ⟨35, _⟩ => ⟨S1000, .f32⟩
  | .hbm, ⟨36, _⟩ => ⟨S_, .f32⟩
  | .hbm, ⟨37, _⟩ => ⟨S1000, .f32⟩
  | .hbm, ⟨38, _⟩ => ⟨S1000, .f32⟩
  | .hbm, ⟨39, _⟩ => ⟨S1000x1, .f32⟩
  | .hbm, ⟨40, _⟩ => ⟨S1000x10, .f32⟩
  | .hbm, ⟨41, _⟩ => ⟨S1000x10, .f32⟩
  | .hbm, ⟨42, _⟩ => ⟨S1000x10, .f32⟩
  | .hbm, ⟨43, _⟩ => ⟨S_, .f32⟩
  | .hbm, ⟨44, _⟩ => ⟨S1000, .f32⟩
  | .hbm, ⟨45, _⟩ => ⟨S1000x1, .f32⟩
  | .hbm, ⟨46, _⟩ => ⟨S1000x1, .f32⟩
  | .hbm, ⟨47, _⟩ => ⟨S1000x10, .f32⟩
  | .hbm, ⟨48, _⟩ => ⟨S1000x10, .f32⟩
  | .hbm, ⟨49, _⟩ => ⟨S1000, .i32⟩
  | .hbm, ⟨50, _⟩ => ⟨S_, .i32⟩
  | .hbm, ⟨51, _⟩ => ⟨S1000, .i32⟩
  | .hbm, ⟨52, _⟩ => ⟨S1000, .i1⟩
  | .hbm, ⟨53, _⟩ => ⟨S_, .i32⟩
  | .hbm, ⟨54, _⟩ => ⟨S1000, .i32⟩
  | .hbm, ⟨55, _⟩ => ⟨S1000, .i32⟩
  | .hbm, ⟨56, _⟩ => ⟨S1000, .i32⟩
  | .hbm, ⟨57, _⟩ => ⟨S_, .i32⟩
  | .hbm, ⟨58, _⟩ => ⟨S1000, .i32⟩
  | .hbm, ⟨59, _⟩ => ⟨S1000, .i1⟩
  | .hbm, ⟨60, _⟩ => ⟨S_, .i32⟩
  | .hbm, ⟨61, _⟩ => ⟨S1000, .i32⟩
  | .hbm, ⟨62, _⟩ => ⟨S1000, .i32⟩
  | .hbm, ⟨63, _⟩ => ⟨S1000, .i32⟩
  | .hbm, ⟨64, _⟩ => ⟨S1000x1, .i32⟩
  | .hbm, ⟨65, _⟩ => ⟨S1000x1, .i32⟩
  | .hbm, ⟨66, _⟩ => ⟨S1000x2, .i32⟩
  | .hbm, ⟨67, _⟩ => ⟨S1000, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S4096x128, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S1x4096, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S128x4096, .f32⟩
  | .hbm, ⟨80, _⟩ => ⟨S4096x4096, .f32⟩
  | .hbm, ⟨81, _⟩ => ⟨S_, .f32⟩
  | .hbm, ⟨82, _⟩ => ⟨S4096x4096, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S4096x4096, .f32⟩
  | .hbm, ⟨87, _⟩ => ⟨S4096x4096, .f32⟩
  | .hbm, ⟨88, _⟩ => ⟨S_, .f32⟩
  | .hbm, ⟨89, _⟩ => ⟨S4096x4096, .f32⟩
  | .hbm, ⟨90, _⟩ => ⟨S4096x4096, .i1⟩
  | .hbm, ⟨91, _⟩ => ⟨S_, .f32⟩
  | .hbm, ⟨92, _⟩ => ⟨S_, .f32⟩
  | .hbm, ⟨93, _⟩ => ⟨S4096x4096, .f32⟩
  | .hbm, ⟨94, _⟩ => ⟨S4096x4096, .f32⟩
  | .hbm, ⟨95, _⟩ => ⟨S4096x4096, .f32⟩
  | .hbm, ⟨96, _⟩ => ⟨S4096x4096, .f32⟩
  | .hbm, ⟨97, _⟩ => ⟨S4096x4096, .f32⟩
  | .hbm, ⟨98, _⟩ => ⟨S4096x4096, .f32⟩
  | .hbm, ⟨99, _⟩ => ⟨S4096x4096, .f32⟩
  | .hbm, ⟨100, _⟩ => ⟨S4096x4096, .f32⟩
  | .hbm, ⟨101, _⟩ => ⟨S_, .f32⟩
  | .hbm, ⟨102, _⟩ => ⟨S_, .f32⟩
  | .hbm, ⟨103, _⟩ => ⟨S4096x4096, .f32⟩
  | .hbm, ⟨104, _⟩ => ⟨S4096x4096, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_call0_cst_0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_cst_1 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_14 : Ref sig .tc := ⟨.hbm, 101, rfl⟩
abbrev main_call2_v0 : Ref sig .tc := ⟨.hbm, 102, rfl⟩
abbrev main_call2_v1 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_cst_16 : Ref sig .tc := ⟨.hbm, 108, rfl⟩
abbrev main_v66 : Ref sig .tc := ⟨.hbm, 109, rfl⟩
abbrev main_v67 : Ref sig .tc := ⟨.hbm, 110, rfl⟩
abbrev main_cst_17 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩

abbrev nD : Nat := 1
abbrev τ : Topo := Topo.v7x

variable {F : FTy → Type} [FloatOps F]

class Facts₀ : Prop where
  bcast_S_S1000x4096 : S_.BroadcastsInDim S1000x4096 (![] : Fin 0 → Fin S1000x4096.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S_S1000x512 : S_.BroadcastsInDim S1000x512 (![] : Fin 0 → Fin S1000x512.rank)
  bcast_S1000x1_S1000x512_0_1 : S1000x1.BroadcastsInDim S1000x512 (![0, 1] : Fin 2 → Fin S1000x512.rank)
  bcast_S1000x512_S1000x512x1_0_1 : S1000x512.BroadcastsInDim S1000x512x1 (![0, 1] : Fin 2 → Fin S1000x512x1.rank)
  concatenates_S1000x512x1_S1000x512x1_S1000x512x2_d2 : Shape.Concatenates [S1000x512x1, S1000x512x1] S1000x512x2 2
  transposes_S10x128_S128x10_1_0 : S10x128.Transposes [1, 0] S128x10
  reducesTo_S1000x10_S1000_d1 : S1000x10.ReducesTo [1] S1000
  h_S_ : 0 < S_.numel
  bcast_S_S1000 : S_.BroadcastsInDim S1000 (![] : Fin 0 → Fin S1000.rank)
  bcast_S1000x1_S1000x10_0_1 : S1000x1.BroadcastsInDim S1000x10 (![0, 1] : Fin 2 → Fin S1000x10.rank)
  concatenates_S1000x1_S1000x1_S1000x2_d1 : Shape.Concatenates [S1000x1, S1000x1] S1000x2 1
  reducesTo_S1000_S_d0 : S1000.ReducesTo [0] S_
  reducesTo_S4096x128_S4096_d1 : S4096x128.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  reducesTo_S4096x4096_S_d0_1 : S4096x4096.ReducesTo [0, 1] S_
  scatter_S1000x4096_S1000x512x2_S1000x512_n_01_01_2_wf : ScatterDims.WF S1000x4096 S1000x512x2 S1000x512 [] [0, 1] [0, 1] 2
  dot_S1000x4096_S4096x128_S1000x128_1_0_0_1_n_n_wf : DotDims.WF S1000x4096 S4096x128 S1000x128 [1] [0] [0] [1] [] []
  dot_S1000x128_S128x10_S1000x10_1_0_0_1_n_n_wf : DotDims.WF S1000x128 S128x10 S1000x10 [1] [0] [0] [1] [] []
  gather_S1000x10_S1000x2_S1000_n_01_n_n_01_1_11_wf : GatherDims.WF S1000x10 S1000x2 S1000 [] [0, 1] [] [0, 1] [] 1 ![1, 1]
  dot_S4096x128_S128x4096_S4096x4096_1_0_0_1_n_n_wf : DotDims.WF S4096x128 S128x4096 S4096x4096 [1] [0] [0] [1] [] []

variable [Facts₀]

def scatter_S1000x4096_S1000x512x2_S1000x512_n_01_01_2 : ScatterDims S1000x4096 S1000x512x2 S1000x512 where
  updateWindowDims := []
  insertedWindowDims := [0, 1]
  scatterDimsToOperandDims := [0, 1]
  indexVectorDim := 2
  wf := scatter_S1000x4096_S1000x512x2_S1000x512_n_01_01_2_wf
def dot_S1000x4096_S4096x128_S1000x128_1_0_0_1_n_n : DotDims S1000x4096 S4096x128 S1000x128 where
  lhsContracting := [1]
  rhsContracting := [0]
  lhsNonContracting := [0]
  rhsNonContracting := [1]
  lhsBatch := []
  rhsBatch := []
  wf := dot_S1000x4096_S4096x128_S1000x128_1_0_0_1_n_n_wf
def dot_S1000x128_S128x10_S1000x10_1_0_0_1_n_n : DotDims S1000x128 S128x10 S1000x10 where
  lhsContracting := [1]
  rhsContracting := [0]
  lhsNonContracting := [0]
  rhsNonContracting := [1]
  lhsBatch := []
  rhsBatch := []
  wf := dot_S1000x128_S128x10_S1000x10_1_0_0_1_n_n_wf
def gather_S1000x10_S1000x2_S1000_n_01_n_n_01_1_11 : GatherDims S1000x10 S1000x2 S1000 where
  offsetDims := []
  collapsedSliceDims := [0, 1]
  operandBatchingDims := []
  startIndicesBatchingDims := []
  startIndexMap := [0, 1]
  indexVectorDim := 1
  sliceSizes := ![1, 1]
  wf := gather_S1000x10_S1000x2_S1000_n_01_n_n_01_1_11_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.K.Base.lean ====
/-
  The launch side of the pairwise-distance kernel's run, for any float instance: the program is one transpose on the
  host (embs ↦ embsᵀ), the 4 × 4 grid of the kernel, and then the host lines that scale the accumulated sum and compute
  the supervised term.  Here: what the buffers hold when the grid is entered, that the later host lines leave the
  kernel's four arrays alone, each window's block of its array at a grid point, the two branch conditions of the body in
  closed form over the 16 points (the accumulator is reset at point 0 only and written out at point 15 only), and how the
  frame claim follows from a run of the whole program.
-/
import proofs.«141310_j14559939134042_1_alg».proof.Proof.Gen.Kernel.Launch
import proofs.«141310_j14559939134042_1_alg».proof.Proof.Gen.Kernel.Skeleton
import proofs.«141310_j14559939134042_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the grid -/

/-- The buffers' contents when the grid is entered: the launch contents after the one host line before it (the transpose). -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host lines after the grid, in program order: the scaling of the sum and the counts, the log-softmax, the gather and the
    final combination. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the transpose, the grid, and then the later host lines: it reduces to the grid continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No later line writes buffer `r` when `r` is none of the lines' result buffers: each line writes its own result only. -/
theorem tail_not_written (r : Ref sig .tc)
    (h : ∀ op ∈ (tailOps (F := F)).flatten, Proc.devRef (τ := τ) .tc r ∉ op.writes) :
    ∀ ops ∈ (tailOps : List (List (HloOp τ sig (Elt F)))), ∀ op ∈ ops, Proc.devRef (τ := τ) .tc r ∉ op.writes :=
  fun ops hops op hop => h op (List.mem_flatten.mpr ⟨ops, hops, hop⟩)

theorem tail_keeps_main_arg0 : ∀ op ∈ (tailOps (F := F)).flatten, Proc.devRef (τ := τ) .tc main_arg0 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg4 : ∀ op ∈ (tailOps (F := F)).flatten, Proc.devRef (τ := τ) .tc main_arg4 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_v0 : ∀ op ∈ (tailOps (F := F)).flatten, Proc.devRef (τ := τ) .tc main_v0 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_v1 : ∀ op ∈ (tailOps (F := F)).flatten, Proc.devRef (τ := τ) .tc main_v1 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg1 : ∀ op ∈ (tailOps (F := F)).flatten, Proc.devRef (τ := τ) .tc main_arg1 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg2 : ∀ op ∈ (tailOps (F := F)).flatten, Proc.devRef (τ := τ) .tc main_arg2 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg3 : ∀ op ∈ (tailOps (F := F)).flatten, Proc.devRef (τ := τ) .tc main_arg3 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg5 : ∀ op ∈ (tailOps (F := F)).flatten, Proc.devRef (τ := τ) .tc main_arg5 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- And so they write none of the kernel's four arrays (pair_counts, embs, embsᵀ and the 1 × 1 result). -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_not_written main_arg0 tail_keeps_main_arg0 ops hops op hop
  · exact tail_not_written main_arg4 tail_keeps_main_arg4 ops hops op hop
  · exact tail_not_written main_v0 tail_keeps_main_v0 ops hops op hop
  · exact tail_not_written main_v1 tail_keeps_main_v1 ops hops op hop

/-- The transpose writes its own result only: argument 0 is as launched when the grid is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 1 is as launched when the grid is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 2 is as launched when the grid is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 3 is as launched when the grid is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 4 is as launched when the grid is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 5 is as launched when the grid is entered. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 1 is no array of the kernel and no later line writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ tail_keeps_main_arg1,
    Pipeline.withArrays_of_ne _ c (V0 m c) _ main_arg1 (by exact (by decide : ∀ w, Pipeline.arrRef spec0 w ≠ main_arg1))]
  exact V_main_arg1 m c
/-- Argument 2 is no array of the kernel and no later line writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ tail_keeps_main_arg2,
    Pipeline.withArrays_of_ne _ c (V0 m c) _ main_arg2 (by exact (by decide : ∀ w, Pipeline.arrRef spec0 w ≠ main_arg2))]
  exact V_main_arg2 m c
/-- Argument 3 is no array of the kernel and no later line writes it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ tail_keeps_main_arg3,
    Pipeline.withArrays_of_ne _ c (V0 m c) _ main_arg3 (by exact (by decide : ∀ w, Pipeline.arrRef spec0 w ≠ main_arg3))]
  exact V_main_arg3 m c
/-- Argument 5 is no array of the kernel and no later line writes it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ tail_keeps_main_arg5,
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (a point that does not fetch it
    has the same block index as the point before). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (a point that does not fetch it
    has the same block index as the point before). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (a point that does not fetch it
    has the same block index as the point before). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run of the whole program that ends with the kernel's input arrays at their entry contents and every other unscoped
    buffer as the later lines leave it ends with the six arguments as launched: pair_counts and embs are input arrays of
    the kernel, the other four are touched by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    ((h c).1 1).trans (((dats 0 c).arrAt_in 1 rfl _).trans ((hA c 1).trans (V_main_arg4 m c))),
    (((h c).2 main_arg5 (Pipeline.mem_restRefs_of main_arg5 (by decide) (by decide))).trans (W_main_arg5 m dats c))⟩) h

/-! ## The body's two branches -/

/-- The body resets the accumulator when both grid coordinates are 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is point 0 of the 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The body writes the accumulator out when both grid coordinates are 3. -/
abbrev cond0_1 (i : grid0.Coords) : Prop := k0_cond2 i = 1#1
/-- That is point 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point nothing is stored into the result window, and its block is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the result window is stored into. -/
theorem liveAt0_3 : ∀ t : Fin cfg0.N, cond0_1 (grid0.coords t) → cfg0.idle 3 (grid0.coords t) = false := by decide +kernel

/-! ## The staging memrefs the body is called with -/

/-- The result window's one staging buffer, as a view. -/
abbrev VO0_3 : View sig .tc .vmem S1x1 .f32 := (Memref.whole cc0_stg3_0 : Memref sig .tc .vmem S1x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The 1 × 1 accumulator, a scratch buffer of the kernel's own that persists across the grid. -/
abbrev scM0_0 : Memref sig .tc .vmem S1x1 .f32 := Memref.whole cc0_scratch0
abbrev VS0_0 : View sig .tc .vmem S1x1 .f32 := scM0_0.view

/-- What the launch hands the grid besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The kernel body at the first grid point, where both grid coordinates are 0: it stores 0 into the accumulator, loads the
  three input blocks, adds the block's sum of terms to the accumulator, and stores nothing into the result window.  Run
  symbolically on any whole staging buffers; what the accumulator ends with is recorded as the list of its stores.
-/
import proofs.«141310_j14559939134042_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first point: from the three input blocks at their contents, the result window's buffer at contents `xi3` (handed
    back untouched) and the accumulator at anything, the body runs to the end leaving the inputs as they were and the
    accumulator with its two stores written (0, then 0 + the block's sum). -/
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pairwise_kernel i arg2 harg2 arg3 harg3 arg4 harg4 arg5 harg5 arg6 harg6) K } := by
  refine ⟨[], ?_, fun xi3 E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.RunB.lean ====
/-
  The kernel body at a middle grid point (neither the first nor the last): it loads the three input blocks and adds the
  block's sum of terms to the accumulator, which holds what the point before left; nothing is stored into the result window.
-/
import proofs.«141310_j14559939134042_1_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a middle point: from the three input blocks at their contents, the result window's buffer at contents `xi3` (handed back
    untouched) and the accumulator at the contents `xs0` the point before left, the body runs to the end leaving the inputs
    as they were and the accumulator with its one store written (`xs0` + the block's sum). -/
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pairwise_kernel i arg2 harg2 arg3 harg3 arg4 harg4 arg5 harg5 arg6 harg6) K } := by
  refine ⟨[], ?_, fun xi3 E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.RunC.lean ====
/-
  The kernel body at the last grid point, where both grid coordinates are 3: it loads the three input blocks, adds the
  block's sum of terms to the accumulator, and copies the accumulator into the result window.
-/
import proofs.«141310_j14559939134042_1_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the last point: from the three input blocks at their contents, the result window's buffer at anything and the accumulator
    at the contents `xs0` the point before left, the body runs to the end leaving the inputs as they were, the accumulator with
    its one store written and the result window's buffer with its one store written (the accumulator's final contents). -/
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pairwise_kernel i arg2 harg2 arg3 harg3 arg4 harg4 arg5 harg5 arg6 harg6) K } := by
  refine ⟨?_, ?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Frame.lean ====
/-
  The pairwise-distance kernel's run over its 4 × 4 grid, for any float instance.  The 1 × 1 accumulator is a scratch buffer
  that persists across the grid: point 0 resets it to 0 and adds the first block's sum of terms, every later point adds its
  block's sum to what the point before left, and point 15 copies the total into the result window, whose block is written
  back there and nowhere else.  Here: what the accumulator and the result window hold after each point, by recursion on
  the point; the invariant carrying the accumulator from one point to the next; the body's obligation at every point from
  the three symbolic runs; the run of the whole program; and the frame claim.
-/
import proofs.«141310_j14559939134042_1_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The first point stores nothing into the result window (a placeholder nothing consults: the window is not written back there). -/
def out0_A_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) : Vec F S1x1 .f32 :=
  VO0_3.read (Elt F) (VO0_3.writes (Elt F) VO0_3.junk (kernelRun0_A c i arg2 harg2 arg3 harg3 arg4 harg4 arg5 harg5 arg6 harg6 hc0 hc1 x0 x1 x2).1)

/-- The first point's two stores into the accumulator cover its one element. -/
theorem scover0_A_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) (y : S1x1.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x1.size (by sl_kernel_rfl) y

/-- What the first point leaves in the accumulator: 0 + the first block's sum. -/
def sout0_A_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) : Vec F S1x1 .f32 :=
  VS0_0.read (Elt F) (VS0_0.writes (Elt F) VS0_0.junk (kernelRun0_A c i arg2 harg2 arg3 harg3 arg4 harg4 arg5 harg5 arg6 harg6 hc0 hc1 x0 x1 x2).2.1)

/-- A middle point stores nothing into the result window either. -/
def out0_B_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) : Vec F S1x1 .f32 :=
  VO0_3.read (Elt F) (VO0_3.writes (Elt F) VO0_3.junk (kernelRun0_B c i arg2 harg2 arg3 harg3 arg4 harg4 arg5 harg5 arg6 harg6 hc0 hc1 x0 x1 x2 xs0).1)

/-- A middle point's one store into the accumulator covers it. -/
theorem scover0_B_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) (y : S1x1.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x1.size (by sl_kernel_rfl) y

/-- What a middle point leaves in the accumulator: what it found plus the block's sum. -/
def sout0_B_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The last point's one store into the result window covers it. -/
theorem cover0_C_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) (y : S1x1.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1.size (by sl_kernel_rfl) y

/-- What the last point leaves in the result window: the accumulator's final contents. -/
def out0_C_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) : Vec F S1x1 .f32 :=
  VO0_3.read (Elt F) (VO0_3.writes (Elt F) VO0_3.junk (kernelRun0_C c i arg2 harg2 arg3 harg3 arg4 harg4 arg5 harg5 arg6 harg6 hc0 hc1 x0 x1 x2 xs0).1)

/-- The last point's one store into the accumulator covers it. -/
theorem scover0_C_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) (y : S1x1.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x1.size (by sl_kernel_rfl) y

/-- What the last point leaves in the accumulator. -/
def sout0_C_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The accumulation, point by point -/

/-- What the result window's buffer and the accumulator hold after the body at point `n` (a pair): point 0 from the first
    block alone, every later point from its block and what point `n - 1` left in the accumulator. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 16 = 0 then
      False.elim (by have hN : n + 1 < 16 := lt_of_lt_of_eq hn (show cfg0.N = 16 from N_0); omega)
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at the first point. -/
theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (by exfalso; have hN : n + 1 < 16 := lt_of_lt_of_eq hn (show cfg0.N = 16 from N_0); (try dsimp only at h0); omega)

/-- `outsAt0` at a middle point: over what the point before left. -/
theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point: over what the point before left. -/
theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the launch hands over (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data of the grid -/

/-- On core `c`: the arrays as the grid finds them; after the body at point `t` each input's buffer at its block and the result
    window's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which of the three kinds the point is;
    the invariant hands the body the accumulator at what the point before left (at anything at point 0) and takes it back at
    this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  by_cases h0 : t.val % 16 = 0
  · have h1 : ¬t.val % 16 = 15 := by omega
    have hz : t.val = 0 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the grid is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of the program terminates, every array of the kernel ending
    at what the proof data computes and every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to the end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.KI.Base.lean ====
/-
  The launch side of the pairwise-distance kernel's run, for any float instance: the program is one transpose on the
  host (embs ↦ embsᵀ), the 4 × 4 grid of the kernel, and then the host lines that scale the accumulated sum and compute
  the supervised term.  Here: what the buffers hold when the grid is entered, that the later host lines leave the
  kernel's four arrays alone, each window's block of its array at a grid point, the two branch conditions of the body in
  closed form over the 16 points (the accumulator is reset at point 0 only and written out at point 15 only), and how the
  frame claim follows from a run of the whole program.
-/
import proofs.«141310_j14559939134042_1_alg».proof.Proof.Gen.KernelIdeal.Launch
import proofs.«141310_j14559939134042_1_alg».proof.Proof.Gen.KernelIdeal.Skeleton
import proofs.«141310_j14559939134042_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the grid -/

/-- The buffers' contents when the grid is entered: the launch contents after the one host line before it (the transpose). -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host lines after the grid, in program order: the scaling of the sum and the counts, the log-softmax, the gather and the
    final combination. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the transpose, the grid, and then the later host lines: it reduces to the grid continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No later line writes buffer `r` when `r` is none of the lines' result buffers: each line writes its own result only. -/
theorem tail_not_written (r : Ref sig .tc)
    (h : ∀ op ∈ (tailOps (F := F)).flatten, Proc.devRef (τ := τ) .tc r ∉ op.writes) :
    ∀ ops ∈ (tailOps : List (List (HloOp τ sig (Elt F)))), ∀ op ∈ ops, Proc.devRef (τ := τ) .tc r ∉ op.writes :=
  fun ops hops op hop => h op (List.mem_flatten.mpr ⟨ops, hops, hop⟩)

theorem tail_keeps_main_arg0 : ∀ op ∈ (tailOps (F := F)).flatten, Proc.devRef (τ := τ) .tc main_arg0 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg4 : ∀ op ∈ (tailOps (F := F)).flatten, Proc.devRef (τ := τ) .tc main_arg4 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_v0 : ∀ op ∈ (tailOps (F := F)).flatten, Proc.devRef (τ := τ) .tc main_v0 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_v1 : ∀ op ∈ (tailOps (F := F)).flatten, Proc.devRef (τ := τ) .tc main_v1 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg1 : ∀ op ∈ (tailOps (F := F)).flatten, Proc.devRef (τ := τ) .tc main_arg1 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg2 : ∀ op ∈ (tailOps (F := F)).flatten, Proc.devRef (τ := τ) .tc main_arg2 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg3 : ∀ op ∈ (tailOps (F := F)).flatten, Proc.devRef (τ := τ) .tc main_arg3 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem tail_keeps_main_arg5 : ∀ op ∈ (tailOps (F := F)).flatten, Proc.devRef (τ := τ) .tc main_arg5 ∉ op.writes :=
  (List.forall_iff_forall_mem.mp (by
    simp only [tailOps, hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- And so they write none of the kernel's four arrays (pair_counts, embs, embsᵀ and the 1 × 1 result). -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_not_written main_arg0 tail_keeps_main_arg0 ops hops op hop
  · exact tail_not_written main_arg4 tail_keeps_main_arg4 ops hops op hop
  · exact tail_not_written main_v0 tail_keeps_main_v0 ops hops op hop
  · exact tail_not_written main_v1 tail_keeps_main_v1 ops hops op hop

/-- The transpose writes its own result only: argument 0 is as launched when the grid is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 1 is as launched when the grid is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 2 is as launched when the grid is entered. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 3 is as launched when the grid is entered. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 4 is as launched when the grid is entered. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The transpose writes its own result only: argument 5 is as launched when the grid is entered. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 1 is no array of the kernel and no later line writes it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ tail_keeps_main_arg1,
    Pipeline.withArrays_of_ne _ c (V0 m c) _ main_arg1 (by exact (by decide : ∀ w, Pipeline.arrRef spec0 w ≠ main_arg1))]
  exact V_main_arg1 m c
/-- Argument 2 is no array of the kernel and no later line writes it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ tail_keeps_main_arg2,
    Pipeline.withArrays_of_ne _ c (V0 m c) _ main_arg2 (by exact (by decide : ∀ w, Pipeline.arrRef spec0 w ≠ main_arg2))]
  exact V_main_arg2 m c
/-- Argument 3 is no array of the kernel and no later line writes it: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ tail_keeps_main_arg3,
    Pipeline.withArrays_of_ne _ c (V0 m c) _ main_arg3 (by exact (by decide : ∀ w, Pipeline.arrRef spec0 w ≠ main_arg3))]
  exact V_main_arg3 m c
/-- Argument 5 is no array of the kernel and no later line writes it: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ tail_keeps_main_arg5,
    Pipeline.withArrays_of_ne _ c (V0 m c) _ main_arg5 (by exact (by decide : ∀ w, Pipeline.arrRef spec0 w ≠ main_arg5))]
  exact V_main_arg5 m c

/-! ## The windows' blocks -/

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not (a point that does not fetch it
    has the same block index as the point before). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not (a point that does not fetch it
    has the same block index as the point before). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not (a point that does not fetch it
    has the same block index as the point before). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run of the whole program that ends with the kernel's input arrays at their entry contents and every other unscoped
    buffer as the later lines leave it ends with the six arguments as launched: pair_counts and embs are input arrays of
    the kernel, the other four are touched by nothing. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    ((h c).1 1).trans (((dats 0 c).arrAt_in 1 rfl _).trans ((hA c 1).trans (V_main_arg4 m c))),
    (((h c).2 main_arg5 (Pipeline.mem_restRefs_of main_arg5 (by decide) (by decide))).trans (W_main_arg5 m dats c))⟩) h

/-! ## The body's two branches -/

/-- The body resets the accumulator when both grid coordinates are 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- That is point 0 of the 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The body writes the accumulator out when both grid coordinates are 3. -/
abbrev cond0_1 (i : grid0.Coords) : Prop := k0_cond2 i = 1#1
/-- That is point 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point nothing is stored into the result window, and its block is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the result window is stored into. -/
theorem liveAt0_3 : ∀ t : Fin cfg0.N, cond0_1 (grid0.coords t) → cfg0.idle 3 (grid0.coords t) = false := by decide +kernel

/-! ## The staging memrefs the body is called with -/

/-- The result window's one staging buffer, as a view. -/
abbrev VO0_3 : View sig .tc .vmem S1x1 .f32 := (Memref.whole cc0_stg3_0 : Memref sig .tc .vmem S1x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The 1 × 1 accumulator, a scratch buffer of the kernel's own that persists across the grid. -/
abbrev scM0_0 : Memref sig .tc .vmem S1x1 .f32 := Memref.whole cc0_scratch0
abbrev VS0_0 : View sig .tc .vmem S1x1 .f32 := scM0_0.view

/-- What the launch hands the grid besides the windows: the accumulator at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The kernel body at the first grid point, where both grid coordinates are 0: it stores 0 into the accumulator, loads the
  three input blocks, adds the block's sum of terms to the accumulator, and stores nothing into the result window.  Run
  symbolically on any whole staging buffers; what the accumulator ends with is recorded as the list of its stores.
-/
import proofs.«141310_j14559939134042_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the first point: from the three input blocks at their contents, the result window's buffer at contents `xi3` (handed
    back untouched) and the accumulator at anything, the body runs to the end leaving the inputs as they were and the
    accumulator with its two stores written (0, then 0 + the block's sum). -/
noncomputable def kernelRun0_A (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pairwise_kernel i arg2 harg2 arg3 harg3 arg4 harg4 arg5 harg5 arg6 harg6) K } := by
  refine ⟨[], ?_, fun xi3 E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunB.lean ====
/-
  The kernel body at a middle grid point (neither the first nor the last): it loads the three input blocks and adds the
  block's sum of terms to the accumulator, which holds what the point before left; nothing is stored into the result window.
-/
import proofs.«141310_j14559939134042_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a middle point: from the three input blocks at their contents, the result window's buffer at contents `xi3` (handed back
    untouched) and the accumulator at the contents `xs0` the point before left, the body runs to the end leaving the inputs
    as they were and the accumulator with its one store written (`xs0` + the block's sum). -/
noncomputable def kernelRun0_B (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__pairwise_kernel i arg2 harg2 arg3 harg3 arg4 harg4 arg5 harg5 arg6 harg6) K } := by
  refine ⟨[], ?_, fun xi3 E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunC.lean ====
/-
  The kernel body at the last grid point, where both grid coordinates are 3: it loads the three input blocks, adds the
  block's sum of terms to the accumulator, and copies the accumulator into the result window.
-/
import proofs.«141310_j14559939134042_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the last point: from the three input blocks at their contents, the result window's buffer at anything and the accumulator
    at the contents `xs0` the point before left, the body runs to the end leaving the inputs as they were, the accumulator with
    its one store written and the result window's buffer with its one store written (the accumulator's final contents). -/
noncomputable def kernelRun0_C (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__pairwise_kernel i arg2 harg2 arg3 harg3 arg4 harg4 arg5 harg5 arg6 harg6) K } := by
  refine ⟨?_, ?_, fun E K => ?run⟩
  case run =>
    simp only [cc0__pairwise_kernel_eq_skeleton]; unfold cc0__pairwise_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Frame.lean ====
/-
  The pairwise-distance kernel's run over its 4 × 4 grid, for any float instance.  The 1 × 1 accumulator is a scratch buffer
  that persists across the grid: point 0 resets it to 0 and adds the first block's sum of terms, every later point adds its
  block's sum to what the point before left, and point 15 copies the total into the result window, whose block is written
  back there and nowhere else.  Here: what the accumulator and the result window hold after each point, by recursion on
  the point; the invariant carrying the accumulator from one point to the next; the body's obligation at every point from
  the three symbolic runs; the run of the whole program; and the frame claim.
-/
import proofs.«141310_j14559939134042_1_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The first point stores nothing into the result window (a placeholder nothing consults: the window is not written back there). -/
def out0_A_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) : Vec F S1x1 .f32 :=
  VO0_3.read (Elt F) (VO0_3.writes (Elt F) VO0_3.junk (kernelRun0_A c i arg2 harg2 arg3 harg3 arg4 harg4 arg5 harg5 arg6 harg6 hc0 hc1 x0 x1 x2).1)

/-- The first point's two stores into the accumulator cover its one element. -/
theorem scover0_A_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) (y : S1x1.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x1.size (by sl_kernel_rfl) y

/-- What the first point leaves in the accumulator: 0 + the first block's sum. -/
def sout0_A_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) : Vec F S1x1 .f32 :=
  VS0_0.read (Elt F) (VS0_0.writes (Elt F) VS0_0.junk (kernelRun0_A c i arg2 harg2 arg3 harg3 arg4 harg4 arg5 harg5 arg6 harg6 hc0 hc1 x0 x1 x2).2.1)

/-- A middle point stores nothing into the result window either. -/
def out0_B_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) : Vec F S1x1 .f32 :=
  VO0_3.read (Elt F) (VO0_3.writes (Elt F) VO0_3.junk (kernelRun0_B c i arg2 harg2 arg3 harg3 arg4 harg4 arg5 harg5 arg6 harg6 hc0 hc1 x0 x1 x2 xs0).1)

/-- A middle point's one store into the accumulator covers it. -/
theorem scover0_B_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) (y : S1x1.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x1.size (by sl_kernel_rfl) y

/-- What a middle point leaves in the accumulator: what it found plus the block's sum. -/
def sout0_B_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The last point's one store into the result window covers it. -/
theorem cover0_C_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) (y : S1x1.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1.size (by sl_kernel_rfl) y

/-- What the last point leaves in the result window: the accumulator's final contents. -/
def out0_C_3 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) : Vec F S1x1 .f32 :=
  VO0_3.read (Elt F) (VO0_3.writes (Elt F) VO0_3.junk (kernelRun0_C c i arg2 harg2 arg3 harg3 arg4 harg4 arg5 harg5 arg6 harg6 hc0 hc1 x0 x1 x2 xs0).1)

/-- The last point's one store into the accumulator covers it. -/
theorem scover0_C_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) (y : S1x1.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x1.size (by sl_kernel_rfl) y

/-- What the last point leaves in the accumulator. -/
def sout0_C_0 (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## The accumulation, point by point -/

/-- What the result window's buffer and the accumulator hold after the body at point `n` (a pair): point 0 from the first
    block alone, every later point from its block and what point `n - 1` left in the accumulator. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 16 = 0 then
      False.elim (by have hN : n + 1 < 16 := lt_of_lt_of_eq hn (show cfg0.N = 16 from N_0); omega)
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at the first point. -/
theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (by exfalso; have hN : n + 1 < 16 := lt_of_lt_of_eq hn (show cfg0.N = 16 from N_0); (try dsimp only at h0); omega)

/-- `outsAt0` at a middle point: over what the point before left. -/
theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at the last point: over what the point before left. -/
theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the launch hands over (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data of the grid -/

/-- On core `c`: the arrays as the grid finds them; after the body at point `t` each input's buffer at its block and the result
    window's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the closed forms say which of the three kinds the point is;
    the invariant hands the body the accumulator at what the point before left (at anything at point 0) and takes it back at
    this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  by_cases h0 : t.val % 16 = 0
  · have h1 : ¬t.val % 16 = 15 := by omega
    have hz : t.val = 0 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the grid is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of the program terminates, every array of the kernel ending
    at what the proof data computes and every other unscoped buffer as the later host lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to the end, faults nowhere, and leaves its six arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.KI.Pieces.lean ====
/-
  What the three kinds of grid point leave in the 1 × 1 accumulator, as ONE term of the point's three input blocks: the
  body's last store holds the accumulator's previous contents plus the block's sum of terms — 0 plus the sum at the
  first point, where the accumulator was just reset —, and the value the last point copies into the result window is the
  accumulator's contents after that store.
-/
import proofs.«141310_j14559939134042_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The block's contribution added to accumulator contents `acc`: the body's arithmetic as one pure term of the three blocks. -/
abbrev addTile (x0 : Vec F S1024x1024 .f32) (x1 : Vec F S1024x128 .f32) (x2 : Vec F S128x1024 .f32) (acc : Vec F S1x1 .f32) : Vec F S1x1 .f32 :=
  k0_pay1 (k0_pay3 x0) (k0_pay4 x1 x2 x0) (Scalar.ofBits .f32 0x00000000#32) acc

/-- At the first point the accumulator ends at the reset value plus the first block's sum. -/
theorem sout0_A_0_eq (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S1024x1024 .f32) (x1 : Vec F S1024x128 .f32) (x2 : Vec F S128x1024 .f32) :
    sout0_A_0 c i arg2 harg2 arg3 harg3 arg4 harg4 arg5 harg5 arg6 harg6 hc0 hc1 x0 x1 x2 = addTile x0 x1 x2 k0_pay2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero hz]
  simp only [View.readAt_eq_ld, harg2.read_unread, harg3.read_unread, harg4.read_unread, harg6.read_unread, View.ld_unit_zero (S := S1024x1024) hz, View.ld_unit_zero (S := S1024x128) hz, View.ld_unit_zero (S := S128x1024) hz, View.ld_unit_zero (S := S1x1) hz]
  rw [View.readCov_unit_zero (S := S1x1) arg6.view hz]

/-- At a middle point it ends at what it held plus the block's sum. -/
theorem sout0_B_0_eq (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S1024x1024 .f32) (x1 : Vec F S1024x128 .f32) (x2 : Vec F S128x1024 .f32) (xs0 : Vec F S1x1 .f32) :
    sout0_B_0 c i arg2 harg2 arg3 harg3 arg4 harg4 arg5 harg5 arg6 harg6 hc0 hc1 x0 x1 x2 xs0 = addTile x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S1024x1024) hz, View.ld_unit_zero (S := S1024x128) hz, View.ld_unit_zero (S := S128x1024) hz, View.ld_unit_zero (S := S1x1) hz]

/-- The same at the last point. -/
theorem sout0_C_0_eq (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) :
    sout0_C_0 c i arg2 harg2 arg3 harg3 arg4 harg4 arg5 harg5 arg6 harg6 hc0 hc1 x0 x1 x2 xs0 = addTile x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  dsimp only
  rw [View.canon_unit_zero hz]
  simp only [View.readAt_eq_ld, harg2.read_unread, harg3.read_unread, harg4.read_unread, harg6.read_unread, View.ld_unit_zero (S := S1024x1024) hz, View.ld_unit_zero (S := S1024x128) hz, View.ld_unit_zero (S := S128x1024) hz, View.ld_unit_zero (S := S1x1) hz]

/-- And the result window receives exactly that. -/
theorem out0_C_3_eq (c : Dev nD) (i : grid0.Coords) (arg2 : Memref sig .tc .vmem S1024x1024 .f32) (harg2 : arg2.IsWhole) (arg3 : Memref sig .tc .vmem S1024x128 .f32) (harg3 : arg3.IsWhole) (arg4 : Memref sig .tc .vmem S128x1024 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S1024x1024 .f32) (x1 : Vec F S1024x128 .f32) (x2 : Vec F S128x1024 .f32) (xs0 : Vec F S1x1 .f32) :
    out0_C_3 c i arg2 harg2 arg3 harg3 arg4 harg4 arg5 harg5 arg6 harg6 hc0 hc1 x0 x1 x2 xs0 = addTile x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  dsimp only
  rw [View.canon_unit_zero hz]
  simp only [View.readAt_eq_ld, harg2.read_unread, harg3.read_unread, harg4.read_unread, harg6.read_unread, View.ld_unit_zero (S := S1024x1024) hz, View.ld_unit_zero (S := S1024x128) hz, View.ld_unit_zero (S := S128x1024) hz, View.ld_unit_zero (S := S1x1) hz]
  rw [View.readCov_unit_zero (S := S1x1) arg6.view hz]

end Cert.KernelIdeal.Fr

end
-- ==== Proof.TileSum.lean ====
/-
  The 4096 × 4096 index set cut into a 4 × 4 grid of 1024 × 1024 blocks: a sum over every index of the array is the
  sum, over the grid's sixteen blocks, of the sums over each block's 1024 × 1024 indices. Row (or column) `1024·t + p`
  of the array is row (or column) `p` of block `t`; the pairs `(t, p)` enumerate the 4096 rows once each.
-/
import Mathlib.Logic.Equiv.Fin.Basic
import Mathlib.Data.Fintype.BigOperators
import Idealize.ShloMosaic.Lib.ValueIdx

open scoped BigOperators

namespace Cert.Bridge

open Idealize.ShloMosaic

/-- Row (or column) `p` of block `ti`, as a row (or column) of the whole array. -/
def row (ti : Fin 4) (p : Fin 1024) : Fin 4096 := ⟨1024 * ti.val + p.val, by omega⟩

/-- The pairs (block, position inside the block) enumerate the 4096 positions once each, so a sum over the positions is
    the double sum over blocks and positions inside a block. -/
theorem sum_rows {M : Type*} [AddCommMonoid M] (g : Fin 4096 → M) :
    ∑ ti : Fin 4, ∑ p : Fin 1024, g (row ti p) = ∑ r : Fin 4096, g r := by
  rw [← Fintype.sum_prod_type' (f := fun ti p => g (row ti p))]
  refine Fintype.sum_equiv (finProdFinEquiv.trans (finCongr (by norm_num : 4 * 1024 = 4096))) _ _ (fun x => ?_)
  refine congrArg g (Fin.ext ?_)
  show 1024 * x.1.val + x.2.val = x.2.val + 1024 * x.1.val
  omega

/-- The sum of `f` over the whole 4096 × 4096 index set, block by block. -/
theorem total_eq (f : (⟨2, ![4096, 4096]⟩ : Idealize.ShloMosaic.Shape).Idx → EReal) :
    ∑ ti : Fin 4, ∑ tj : Fin 4, ∑ p : Fin 1024, ∑ q : Fin 1024,
        f (Idealize.ShloMosaic.ValueIdx.ix2 (row ti p) (row tj q)) = ∑ j, f j := by
  rw [ValueIdx.sum_idx2 f, ← sum_rows (fun a => ∑ b : Fin 4096, f (ValueIdx.ix2 a b))]
  refine Finset.sum_congr rfl fun ti _ => ?_
  rw [Finset.sum_comm]
  refine Finset.sum_congr rfl fun p _ => ?_
  exact sum_rows (fun b => f (ValueIdx.ix2 (row ti p) b))

end Cert.Bridge
-- ==== Proof.KI.Blocks.lean ====
/-
  Where the kernel's blocks sit in its arrays.  Grid point t = 4·ti + tj reads rows 1024·ti … of pair_counts and of embs and
  columns 1024·tj … of pair_counts and of embsᵀ; embsᵀ is the host transpose of embs, so its column 1024·tj + q is row
  1024·tj + q of embs.  The 1 × 1 result array is written back once, at the last point, so it ends holding what the last
  point left in the result window.
-/
import proofs.«141310_j14559939134042_1_alg».proof.Proof.KI.Frame
import proofs.«141310_j14559939134042_1_alg».proof.Proof.TileSum
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Bridge

/-- The block indices of the four windows at every grid point, decided over the 16 points. -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = t.val % 4
    ∧ win0_3.index t (0 : Fin 2) = 0 ∧ win0_3.index t (1 : Fin 2) = 0 :=
  (by decide +kernel : ∀ t : Fin grid0.N, _)

theorem val_lt (t : Fin cfg0.N) : t.val < 16 := lt_of_lt_of_eq t.isLt (show cfg0.N = 16 from N_0)

/-- The row tile and the column tile of grid point `t`. -/
def tI (t : Fin cfg0.N) : Fin 4 := ⟨t.val / 4, by have := val_lt t; omega⟩
def tJ (t : Fin cfg0.N) : Fin 4 := ⟨t.val % 4, by omega⟩

/-- The pair_counts block at point `t`, element by element. -/
theorem iblk0_apply (c : Dev nD) (t : Fin cfg0.N) (p q : Fin 1024) :
    (iblk m c 0 t : Vec F S1024x1024 .f32) (ix2 p q) = V m c main_arg0 (ix2 (row (tI t) p) (row (tJ t) q)) := by
  obtain ⟨e0, e1, e2, e3, e4, e5, e6, e7⟩ := idx_facts t
  show V m c main_arg0 (((cfg0.win 0).blk t).view.emb (ix2 p q)) = V m c main_arg0 _
  refine congrArg _ ?_
  funext a; apply Fin.ext
  match a with
  | ⟨0, _⟩ => show win0_0.index t (0 : Fin 2) * 1024 + 1 * p.val = 1024 * (t.val / 4) + p.val; omega
  | ⟨1, _⟩ => show win0_0.index t (1 : Fin 2) * 1024 + 1 * q.val = 1024 * (t.val % 4) + q.val; omega

/-- The embs block at point `t`: rows of the row tile, all 128 columns. -/
theorem iblk1_apply (c : Dev nD) (t : Fin cfg0.N) (p : Fin 1024) (k : Fin 128) :
    (iblk m c 1 t : Vec F S1024x128 .f32) (ix2 p k) = V m c main_arg4 (ix2 (row (tI t) p) k) := by
  obtain ⟨e0, e1, e2, e3, e4, e5, e6, e7⟩ := idx_facts t
  show V m c main_arg4 (((cfg0.win 1).blk t).view.emb (ix2 p k)) = V m c main_arg4 _
  refine congrArg _ ?_
  funext a; apply Fin.ext
  match a with
  | ⟨0, _⟩ => show win0_1.index t (0 : Fin 2) * 1024 + 1 * p.val = 1024 * (t.val / 4) + p.val; omega
  | ⟨1, _⟩ => show win0_1.index t (1 : Fin 2) * 128 + 1 * k.val = k.val; omega

/-- The embsᵀ block at point `t`: all 128 rows, columns of the column tile. -/
theorem iblk2_apply (c : Dev nD) (t : Fin cfg0.N) (k : Fin 128) (q : Fin 1024) :
    (iblk m c 2 t : Vec F S128x1024 .f32) (ix2 k q) = V m c main_v0 (ix2 k (row (tJ t) q)) := by
  obtain ⟨e0, e1, e2, e3, e4, e5, e6, e7⟩ := idx_facts t
  show V m c main_v0 (((cfg0.win 2).blk t).view.emb (ix2 k q)) = V m c main_v0 _
  refine congrArg _ ?_
  funext a; apply Fin.ext
  match a with
  | ⟨0, _⟩ => show win0_2.index t (0 : Fin 2) * 128 + 1 * k.val = k.val; omega
  | ⟨1, _⟩ => show win0_2.index t (1 : Fin 2) * 1024 + 1 * q.val = 1024 * (t.val % 4) + q.val; omega

/-- When the grid is entered, embsᵀ's buffer holds the transpose of embs as launched. -/
theorem V_main_v0 (c : Dev nD) :
    (V m c main_v0 : S128x4096.Idx → Elt F .f32)
      = transpose S128x4096 [1, 0] (m ((c : Thread nD τ).loc main_arg4)) transposes_S4096x128_S128x4096_1_0 := by
  dsimp only [V, V0]
  simp only [hostOps0, List.flatten_cons, List.flatten_nil, List.append_nil]
  after_results

/-- So its entry (k, j) is embs's entry (j, k). -/
theorem V_main_v0_apply (c : Dev nD) (k : Fin 128) (j : Fin 4096) :
    (V m c main_v0 : S128x4096.Idx → Elt F .f32) (ix2 k j) = m ((c : Thread nD τ).loc main_arg4) (ix2 j k) := by
  rw [V_main_v0]
  exact transpose_apply [1, 0] (m ((c : Thread nD τ).loc main_arg4)) transposes_S4096x128_S128x4096_1_0 (ix2 k j) (ix2 j k) (fun b => match b with
    | ⟨0, _⟩ => rfl
    | ⟨1, _⟩ => rfl)

theorem last_lt : 15 < cfg0.N := by rw [show cfg0.N = 16 from N_0]; decide

/-- The 1 × 1 result array after the run: what the last point left in the result window. -/
theorem final3 (c : Dev nD) : (dats m 0 c).arrAt 3 cfg0.N = (outsAt0 m c 15 last_lt).1 := by
  refine (dats m 0 c).arrAt_eq_of_cover 3 _ (fun t hf => ?_) (fun i => ?_)
  · have ht : t.val % 16 = 15 := (flush0_3 t).mp hf
    have hN := val_lt t
    obtain rfl : t = ⟨15, last_lt⟩ := Fin.ext (by show t.val = 15; omega)
    obtain ⟨e0, e1, e2, e3, e4, e5, e6, e7⟩ := idx_facts ⟨15, last_lt⟩
    show (cfg0.win 3).cut (grid0.coords _) ((dats m 0 c).after 3 _) = _
    rw [after0_3]
    funext y
    show (outsAt0 m c 15 last_lt).1 y = (outsAt0 m c 15 last_lt).1 (((cfg0.win 3).blk ⟨15, last_lt⟩).view.emb y)
    refine congrArg _ ?_
    funext a; apply Fin.ext
    match a with
    | ⟨0, _⟩ => show (y 0).val = win0_3.index ⟨15, last_lt⟩ (0 : Fin 2) * 1 + 1 * (y 0).val; omega
    | ⟨1, _⟩ => show (y 1).val = win0_3.index ⟨15, last_lt⟩ (1 : Fin 2) * 1 + 1 * (y 1).val; omega
  · refine ⟨⟨15, last_lt⟩, (flush0_3 _).mpr rfl, ?_⟩
    obtain ⟨e0, e1, e2, e3, e4, e5, e6, e7⟩ := idx_facts ⟨15, last_lt⟩
    show i ∈ ((View.whole main_v1).slice (win0_3.rect ⟨15, last_lt⟩)).set
    rw [View.set_slice_whole, Rect.mem_set_unit]
    intro a
    match a with
    | ⟨0, _⟩ => show win0_3.index ⟨15, last_lt⟩ (0 : Fin 2) * 1 ≤ (i 0).val ∧ (i 0).val < win0_3.index ⟨15, last_lt⟩ (0 : Fin 2) * 1 + 1; have h : (i 0).val < 1 := (i 0).isLt; omega
    | ⟨1, _⟩ => show win0_3.index ⟨15, last_lt⟩ (1 : Fin 2) * 1 ≤ (i 1).val ∧ (i 1).val < win0_3.index ⟨15, last_lt⟩ (1 : Fin 2) * 1 + 1; have h : (i 1).val < 1 := (i 1).isLt; omega

end Cert.KernelIdeal.Fr

end
-- ==== Proof.KI.Accum.lean ====
/-
  The kernel's value at the exact instance.  After point n the 1 × 1 accumulator holds the reset value 0 plus the sums of
  the reference's term array over the blocks of points 0 … n (by induction on n: each point adds its block's sum to what
  the point before left); the sixteen blocks are the 4 × 4 tiling of the 4096 × 4096 index set, so after point 15 it
  holds 0 plus the sum of the whole term array, which is what the result array ends with.  The law that one block's
  contribution is the sum of the reference's terms over that block (`TileLaw`) is taken as a hypothesis here and proved
  separately.
-/
import proofs.«141310_j14559939134042_1_alg».proof.Proof.KI.Pieces
import proofs.«141310_j14559939134042_1_alg».proof.Proof.KI.Blocks
import proofs.«141310_j14559939134042_1_alg».proof.Proof.TileSum
import proofs.«141310_j14559939134042_1_alg».proof.Proof.RefRead

set_option maxRecDepth 16384

noncomputable section

namespace Cert.KernelIdeal.Fr

open Cert.KernelIdeal Cert.KernelIdeal.Gen
open Idealize.ShloMosaic Idealize.ShloMosaic.TcCoe
open Idealize.SL.Sem
open Idealize.ShloMosaic.Pipeline (Dat)
open Idealize.ShloMosaic.ValueIdx Cert.Bridge
open scoped BigOperators

/-- One block's law: on blocks x0, x1, x2 that are the (ti, tj) block of pair_counts `A0`, the ti-th row block of embs `A4` and the
    tj-th column block of its transpose, the body adds to the accumulator the sum of the reference's term array over that block. -/
def TileLaw : Prop :=
  ∀ (A0 : FVec Ideal Cert.ReferenceIdeal.S4096x4096 .f32) (A4 : FVec Ideal Cert.ReferenceIdeal.S4096x128 .f32) (ti tj : Fin 4)
    (x0 : Vec Ideal S1024x1024 .f32) (x1 : Vec Ideal S1024x128 .f32) (x2 : Vec Ideal S128x1024 .f32)
    (_ : ∀ (p q : Fin 1024), x0 (ix2 p q) = A0 (ix2 (row ti p) (row tj q)))
    (_ : ∀ (p : Fin 1024) (k : Fin 128), x1 (ix2 p k) = A4 (ix2 (row ti p) k))
    (_ : ∀ (k : Fin 128) (q : Fin 1024), x2 (ix2 k q) = A4 (ix2 (row tj q) k))
    (acc : Vec Ideal S1x1 .f32) (j : S1x1.Idx),
    k0_pay1 (F := Ideal) (k0_pay3 x0) (k0_pay4 x1 x2 x0) (Scalar.ofBits .f32 0x00000000#32) acc j
      = acc j + ∑ p : Fin 1024, ∑ q : Fin 1024, Cert.ReferenceIdeal.Read.val_main_v63 (F := Ideal) A0 A4 (ix2 (row ti p) (row tj q))

variable (m : (ℓ : Loc nD τ sig) → Buf (Elt Ideal) ℓ)

/-- The reference's term array of the launched pair_counts and embs. -/
def T (c : Dev nD) : (⟨2, ![4096, 4096]⟩ : Shape).Idx → EReal :=
  Cert.ReferenceIdeal.Read.val_main_v63 (F := Ideal) (m ((c : Thread nD τ).loc main_arg0)) (m ((c : Thread nD τ).loc main_arg4))

def tIn (n : ℕ) : Fin 4 := ⟨n / 4 % 4, Nat.mod_lt _ (by decide)⟩
def tJn (n : ℕ) : Fin 4 := ⟨n % 4, Nat.mod_lt _ (by decide)⟩

/-- The sum of the term array over the block of grid point `n`. -/
def tileSum (c : Dev nD) (n : ℕ) : EReal := ∑ p : Fin 1024, ∑ q : Fin 1024, T m c (ix2 (row (tIn n) p) (row (tJn n) q))

theorem tI_eq (t : Fin cfg0.N) : tI t = tIn t.val := Fin.ext (by have := val_lt t; show t.val / 4 = t.val / 4 % 4; omega)
theorem tJ_eq (t : Fin cfg0.N) : tJ t = tJn t.val := rfl

/-- At point `t` the body adds that block's sum to whatever the accumulator holds. -/
theorem addTile_apply (H : TileLaw) (c : Dev nD) (t : Fin cfg0.N) (acc : Vec Ideal S1x1 .f32) (j : S1x1.Idx) :
    addTile (iblk m c 0 t) (iblk m c 1 t) (iblk m c 2 t) acc j = acc j + tileSum m c t.val := by
  unfold tileSum T
  rw [← tI_eq, ← tJ_eq]
  exact H (m ((c : Thread nD τ).loc main_arg0)) (m ((c : Thread nD τ).loc main_arg4)) (tI t) (tJ t) (iblk m c 0 t) (iblk m c 1 t) (iblk m c 2 t)
    (fun p q => (iblk0_apply m c t p q).trans (congrFun (V_main_arg0 m c) _))
    (fun p k => (iblk1_apply m c t p k).trans (congrFun (V_main_arg4 m c) _))
    (fun k q => (iblk2_apply m c t k q).trans (V_main_v0_apply m c k (row (tJ t) q)))
    acc j

/-- After point `n`: the reset value plus the block sums of points 0 … n. -/
theorem acc_eq (H : TileLaw) (c : Dev nD) : ∀ (n : ℕ) (hn : n < cfg0.N) (j : S1x1.Idx),
    (outsAt0 m c n hn).2 j = (k0_pay2 (F := Ideal)) j + ∑ s ∈ Finset.range (n + 1), tileSum m c s
  | 0, hn, j => by
    have e : outsAt0 m c 0 hn = _ := outsAt0_A m c ⟨0, hn⟩ (Nat.zero_mod _) (by show ¬(0 : ℕ) % 16 = 15; decide)
    rw [e]; dsimp only
    rw [sout0_A_0_eq, addTile_apply m H c ⟨0, hn⟩, Finset.sum_range_one]
  | n + 1, hn, j => by
    have hN : n + 1 < 16 := lt_of_lt_of_eq hn (show cfg0.N = 16 from N_0)
    have h0 : ¬(n + 1) % 16 = 0 := by omega
    have ih := acc_eq H c n (Nat.lt_of_succ_lt hn) j
    by_cases h1 : (n + 1) % 16 = 15
    · have e : outsAt0 m c (n + 1) hn = _ := outsAt0_C m c ⟨n + 1, hn⟩ h0 h1
      rw [e]; dsimp only
      rw [sout0_C_0_eq, addTile_apply m H c ⟨n + 1, hn⟩, Finset.sum_range_succ _ (n + 1), ← add_assoc]
      exact congrArg (· + _) ih
    · have e : outsAt0 m c (n + 1) hn = _ := outsAt0_B m c ⟨n + 1, hn⟩ h0 h1
      rw [e]; dsimp only
      rw [sout0_B_0_eq, addTile_apply m H c ⟨n + 1, hn⟩, Finset.sum_range_succ _ (n + 1), ← add_assoc]
      exact congrArg (· + _) ih

/-- The sixteen blocks tile the index set: their sums add up to the sum of the whole term array. -/
theorem sum_tiles (c : Dev nD) : ∑ s ∈ Finset.range 16, tileSum m c s = ∑ j, T m c j := by
  rw [← total_eq (T m c), Finset.sum_range (fun s => tileSum m c s)]
  rw [← Fintype.sum_prod_type' (f := fun (ti tj : Fin 4) => ∑ p : Fin 1024, ∑ q : Fin 1024, T m c (ix2 (row ti p) (row tj q)))]
  refine (Fintype.sum_equiv (finProdFinEquiv.trans (finCongr (by norm_num : 4 * 4 = 16))) _ _ (fun x => ?_)).symm
  unfold tileSum
  have ea : tIn (x.2.val + 4 * x.1.val) = x.1 := Fin.ext (by show (x.2.val + 4 * x.1.val) / 4 % 4 = x.1.val; omega)
  have eb : tJn (x.2.val + 4 * x.1.val) = x.2 := Fin.ext (by show (x.2.val + 4 * x.1.val) % 4 = x.2.val; omega)
  show _ = ∑ p : Fin 1024, ∑ q : Fin 1024, T m c (ix2 (row (tIn (x.2.val + 4 * x.1.val)) p) (row (tJn (x.2.val + 4 * x.1.val)) q))
  rw [ea, eb]

/-- The kernel's 1 × 1 result array after the run: 0 plus the sum of the whole term array, at its one index. -/
theorem result_eq (H : TileLaw) (c : Dev nD) (j : S1x1.Idx) :
    (dats m 0 c).arrAt 3 cfg0.N j = (k0_pay2 (F := Ideal)) j + ∑ i, T m c i := by
  rw [final3]
  have e : outsAt0 m c 15 last_lt = _ := outsAt0_C m c ⟨15, last_lt⟩ (by show ¬(15 : ℕ) % 16 = 0; decide) (by show (15 : ℕ) % 16 = 15; decide)
  rw [e]; dsimp only
  have h14 := acc_eq m H c 14 (Nat.lt_of_succ_lt last_lt) j
  rw [out0_C_3_eq, addTile_apply m H c ⟨15, last_lt⟩]
  show (outsAt0 m c 14 _).2 j + tileSum m c 15 = _
  rw [h14, add_assoc, ← Finset.sum_range_succ (fun s => tileSum m c s) 15, sum_tiles]

end Cert.KernelIdeal.Fr

end
-- ==== Proof.KI.Tail.lean ====
/-
  The host lines after the grid, read as one function: from any contents `W` of the buffers at the grid's exit, the program's
  result is  delta · supervised + (1 − delta) · ((−acc) · 2⁻²⁴), where `acc` is the kernel's 1 × 1 result read as a scalar and
  `supervised` is the negated sum of the gathered log-softmax entries of (counts · embs) · weightsᵀ — the same chain of host
  operations the reference applies to the same four arguments, so it is stated through the reference's own stage.
-/
import proofs.«141310_j14559939134042_1_alg».proof.Proof.KI.Base
import proofs.«141310_j14559939134042_1_alg».proof.Proof.RefRead

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 1000000 in
set_option maxHeartbeats 400000000 in
/-- The result buffer after the later host lines, from any exit contents `W`. -/
theorem tail_result (W : Valuation τ sig (Elt F)) :
    StableHlo.after (List.flatten (tailOps (F := F))) W (Proc.devRef .tc main_v48)
      = addf (mulf (W (Proc.devRef .tc main_arg3))
            (Cert.ReferenceIdeal.Read.val_main_v39 (F := F) (W (Proc.devRef .tc main_arg1)) (W (Proc.devRef .tc main_arg2)) (W (Proc.devRef .tc main_arg4)) (W (Proc.devRef .tc main_arg5))))
          (mulf (subf (constant S_ .f32 0x3F800000#32) (W (Proc.devRef .tc main_arg3)))
            (mulf (Host.negf fun i => shapeCast S_ (W (Proc.devRef .tc main_v1)) shapeCasts_S1x1_S_ i) (constant S_ .f32 0x33800000#32))) := by
  simp only [tailOps, hostOps1, hostOps1_1, hostOps1_2, List.flatten_cons, List.flatten_nil, List.append_nil, List.cons_append, List.nil_append]
  after_results_simp <;> rfl

end Cert.KernelIdeal.Fr

end
-- ==== Proof.KI.Final.lean ====
/-
  The kernel program's result at the exact instance is the reference's result of the same six arguments: the host lines
  after the grid read the four untouched arguments as launched, embs through the kernel's (unchanged) input array, and the
  kernel's 1 × 1 result, which is 0 plus the sum of the reference's whole term array — exactly the reference's total.
-/
import proofs.«141310_j14559939134042_1_alg».proof.Proof.KI.Accum
import proofs.«141310_j14559939134042_1_alg».proof.Proof.KI.Tail

set_option maxRecDepth 16384

noncomputable section

namespace Cert.KernelIdeal.Fr

open Cert.KernelIdeal Cert.KernelIdeal.Gen
open Idealize.ShloMosaic Idealize.ShloMosaic.TcCoe
open Idealize.SL.Sem
open Idealize.ShloMosaic.Pipeline (Dat)
open Idealize.ShloMosaic.ValueIdx Cert.Bridge
open scoped BigOperators

variable (m : (ℓ : Loc nD τ sig) → Buf (Elt Ideal) ℓ) (ρ : Dev nD → PrngReg)

/-- The 1 × 1 result read as a scalar is the reference's total (its sum stage). -/
theorem acc_scalar (H : TileLaw) (c : Dev nD) :
    (fun i => shapeCast S_ ((dats m 0 c).arrAt 3 cfg0.N) shapeCasts_S1x1_S_ i)
      = Cert.ReferenceIdeal.Read.val_main_v64 (F := Ideal) (m ((c : Thread nD τ).loc main_arg0)) (m ((c : Thread nD τ).loc main_arg4)) := by
  funext i
  show (dats m 0 c).arrAt 3 cfg0.N (Shape.reshapeEquiv shapeCasts_S1x1_S_ i) = _
  rw [result_eq m H c, Cert.ReferenceIdeal.Read.val_main_v64_apply]
  rfl

/-- The program's result buffer after the run, as the reference's last stage of the launched arguments. -/
theorem value (H : TileLaw) (c : Dev nD) :
    Pipeline.afterTail₀ cfgs (dats m) 0 (V0 m) tailOps c main_v48
      = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after (List.flatten (tailOps (F := Ideal))) (Pipeline.withArrays spec0 c (V0 m c) fun w => (dats m 0 c).arrAt w cfg0.N) (Proc.devRef .tc main_v48) = _
  rw [tail_result]
  have e1 : (Pipeline.withArrays spec0 c (V0 m c) fun w => (dats m 0 c).arrAt w cfg0.N) (Proc.devRef .tc main_arg1) = (m ((c : Thread nD τ).loc main_arg1)) :=
    (Pipeline.withArrays_of_ne spec0 c (V0 m c) _ main_arg1 (by decide)).trans (V_main_arg1 m c)
  have e2 : (Pipeline.withArrays spec0 c (V0 m c) fun w => (dats m 0 c).arrAt w cfg0.N) (Proc.devRef .tc main_arg2) = (m ((c : Thread nD τ).loc main_arg2)) :=
    (Pipeline.withArrays_of_ne spec0 c (V0 m c) _ main_arg2 (by decide)).trans (V_main_arg2 m c)
  have e3 : (Pipeline.withArrays spec0 c (V0 m c) fun w => (dats m 0 c).arrAt w cfg0.N) (Proc.devRef .tc main_arg3) = (m ((c : Thread nD τ).loc main_arg3)) :=
    (Pipeline.withArrays_of_ne spec0 c (V0 m c) _ main_arg3 (by decide)).trans (V_main_arg3 m c)
  have e5 : (Pipeline.withArrays spec0 c (V0 m c) fun w => (dats m 0 c).arrAt w cfg0.N) (Proc.devRef .tc main_arg5) = (m ((c : Thread nD τ).loc main_arg5)) :=
    (Pipeline.withArrays_of_ne spec0 c (V0 m c) _ main_arg5 (by decide)).trans (V_main_arg5 m c)
  have e4 : (Pipeline.withArrays spec0 c (V0 m c) fun w => (dats m 0 c).arrAt w cfg0.N) (Proc.devRef .tc main_arg4) = (m ((c : Thread nD τ).loc main_arg4)) :=
    (Pipeline.withArrays_arr spec0 launch0.win.arr_inj c (V0 m c) _ 1).trans
      (((dats m 0 c).arrAt_in 1 rfl _).trans ((A_eq m c 1).trans (V_main_arg4 m c)))
  have ev : (Pipeline.withArrays spec0 c (V0 m c) fun w => (dats m 0 c).arrAt w cfg0.N) (Proc.devRef .tc main_v1) = (dats m 0 c).arrAt 3 cfg0.N :=
    Pipeline.withArrays_arr spec0 launch0.win.arr_inj c (V0 m c) _ 3
  rw [e1, e2, e3, e4, e5, ev]
  refine (congrArg (fun L : FVec Ideal S_ .f32 =>
      addf (mulf (m ((c : Thread nD τ).loc main_arg3)) (Cert.ReferenceIdeal.Read.val_main_v39 (F := Ideal) (m ((c : Thread nD τ).loc main_arg1)) (m ((c : Thread nD τ).loc main_arg2)) (m ((c : Thread nD τ).loc main_arg4)) (m ((c : Thread nD τ).loc main_arg5))))
        (mulf (subf (constant S_ .f32 0x3F800000#32) (m ((c : Thread nD τ).loc main_arg3))) (mulf (Host.negf L) (constant S_ .f32 0x33800000#32))))
    (acc_scalar m H c)).trans ?_
  rfl

/-- The run, with the result buffer named. -/
theorem run_value : θ_run defs (onTc (τ := τ) (main (F := Ideal))) ⟨m, fun _ => 0, ρ⟩ (fun r => ∀ c : Dev nD,
      r.2.mem ((c.tc : Thread nD τ).loc main_v48) = Pipeline.afterTail₀ cfgs (dats m) 0 (V0 m) tailOps c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v48 (Pipeline.mem_restRefs_of main_v48 (by decide) (by decide)),
    ((h c).1 0).trans ((((dats m) 0 c).arrAt_in 0 rfl _).trans ((A_eq m c 0).trans (V_main_arg0 m c))),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    ((h c).1 1).trans ((((dats m) 0 c).arrAt_in 1 rfl _).trans ((A_eq m c 1).trans (V_main_arg4 m c))),
    (((h c).2 main_arg5 (Pipeline.mem_restRefs_of main_arg5 (by decide) (by decide))).trans (W_main_arg5 m (dats m) c))⟩)
    (run_main m ρ)

end Cert.KernelIdeal.Fr

end
-- ==== Proof.LibLayoutCols.lean ====
/-
  Layout operations of small rank read at an index written by coordinates: the forms a kernel meets when it keeps a
  reduced axis as a unit axis (`keepdims`) and when it expands a matrix over a new middle axis.

  * a vector of length `a` cast to a column `[a, 1]`;
  * a column `[a, 1]` broadcast along its unit axis to `[a, b]`;
  * a matrix `[a, b]` cast to `[a, 1, b]`, and that broadcast along the new axis to `[a, k, b]`;
  * a column `[k, 1]` cast to `[1, k, 1]`, and that broadcast along both unit axes to `[a, k, b]`.
  A cast keeps the row-major position of an element; a broadcast reads coordinate `0` on the operand's unit axes.
-/
import Idealize.ShloMosaic.Lib.Pipeline.Value
import Idealize.ShloMosaic.Lib.ValueIdx

namespace Cert.LibLayoutCols

open Idealize.ShloMosaic Idealize.ShloMosaic.ValueIdx

variable {α : Type}

/-- A vector of length `a` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, 1, b]` reads, at `(p, u, c)`, the matrix at `(p, c)`. -/
theorem shapeCast_ab_a1b_apply {a b : ℕ} (x : (⟨2, ![a, b]⟩ : Shape).Idx → α) (h : (⟨2, ![a, b]⟩ : Shape).ShapeCasts ⟨3, ![a, 1, b]⟩)
    (p : Fin a) (u : Fin 1) (c : Fin b) : shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An array `[a, 1, b]` broadcast to `[a, k, b]` reads, at `(p, q, c)`, the operand at `(p, 0, c)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (q : Fin k) (c : Fin b) :
    broadcastTo ⟨3, ![a, k, b]⟩ x h (ix3 p q c) = x (ix3 p (0 : Fin 1) c) := by
  refine broadcastTo_apply x h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- A column `[k, 1]` cast to `[1, k, 1]` reads, at `(u, q, w)`, the column at row `q`. -/
theorem shapeCast_k1_1k1_apply {k : ℕ} (x : (⟨2, ![k, 1]⟩ : Shape).Idx → α) (h : (⟨2, ![k, 1]⟩ : Shape).ShapeCasts ⟨3, ![1, k, 1]⟩)
    (u : Fin 1) (q : Fin k) (w : Fin 1) : shapeCast ⟨3, ![1, k, 1]⟩ x h (ix3 u q w) = x (ix2 q (0 : Fin 1)) :=
  shapeCast_apply x h _ _ (by
    have hu : u.val = 0 := by omega
    have hw : w.val = 0 := by omega
    rw [Shape.rowMajor_val_three, Shape.rowMajor_val_two]
    show q.val * 1 + 0 = (u.val * k + q.val) * 1 + w.val
    rw [hu, hw, Nat.zero_mul, Nat.zero_add])

/-- An array `[1, k, 1]` broadcast to `[a, k, b]` reads, at `(p, q, c)`, the operand at `(0, q, 0)`. -/
theorem broadcastTo_1k1_akb_apply {a k b : ℕ} (x : (⟨3, ![1, k, 1]⟩ : Shape).Idx → α)
    (h : (⟨3, ![1, k, 1]⟩ : Shape).Broadcasts ⟨3, ![a, k, b]⟩) (p : Fin a) (q : Fin k) (c : Fin b) :
    broadcastTo ⟨3, ![a, k, b]⟩ x h (ix3 p q c) = x (ix3 (0 : Fin 1) q (0 : Fin 1)) := by
  refine broadcastTo_apply x h (ix3 p q c) (ix3 (0 : Fin 1) q (0 : Fin 1)) fun ax => ?_
  match ax with
  | ⟨0, _⟩ => rfl
  | ⟨1, _⟩ =>
    show q.val = if k = 1 then 0 else q.val
    split
    · have := q.isLt; omega
    · rfl
  | ⟨2, _⟩ => rfl

end Cert.LibLayoutCols
-- ==== Proof.TileTerm.lean ====
/-
  One block of the 4 × 4 grid, as pure mathematics at the extended reals.

  The kernel's body, read as one function of the three blocks it loads — a 1024 × 1024 block of the pair counts, 1024
  rows of the embeddings and 1024 columns of their transpose — adds to its 1 × 1 accumulator the sum, over the block's
  rows and columns, of one term per pair: where the count `a` is not zero, `(−a)·d − exp (−d)` with `d` the square root
  of `max (|u|² + |v|² − 2·⟨u, v⟩, 0)`, and zero elsewhere. The reference computes the same term for every pair of the
  whole 4096 × 4096 array. Here: each of the kernel's sums (the two squared norms, the inner product, the sum over a
  row's lanes and the sum over the rows) is a plain finite sum, a change of float format is the identity, `0 − x` is
  `−x`, and the two comparisons "ordered and unequal" / "unordered or unequal" are one predicate since nothing is
  unordered; so the kernel's term at `(p, q)` of block `(ti, tj)` and the reference's term at row `1024·ti + p`,
  column `1024·tj + q` are the same function `pairTerm` of the same four numbers.
-/
import proofs.«141310_j14559939134042_1_alg».proof.Proof.Gen.KernelIdeal.Skeleton
import proofs.«141310_j14559939134042_1_alg».proof.Proof.RefRead
import proofs.«141310_j14559939134042_1_alg».proof.Proof.LibLayoutCols
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx

/-- Row (or column) `p` of block `ti`, as a row (or column) of the whole array. -/
abbrev rowT (ti : Fin 4) (p : Fin 1024) : Fin 4096 := ⟨1024 * ti.val + p.val, by omega⟩

/-! ## Sums along one axis of a matrix, and the keepdims forms of them -/

section Ops

/-- The sum of a matrix along its second axis: entry `p` is the sum of row `p`. -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-- The sum of a matrix along its first axis: entry `q` is the sum of column `q`. -/
theorem sum_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  match c with
  | ⟨0, _⟩ => rfl
  | ⟨1, _⟩ => rfl

/-- The row sums kept as a column and laid along every column of an `[a, n]` matrix: entry `(p, q)` is the sum of row `p`. -/
theorem rowSums_bcast_apply {a b n : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (p : Fin a) (q : Fin n) :
    broadcastTo ⟨2, ![a, n]⟩ (shapeCast ⟨2, ![a, 1]⟩ (multiReduction .add [1] ⟨1, ![a]⟩ src 0x00000000#32 h hφ hacc) hc) hb (ix2 p q)
      = ∑ k : Fin b, src (ix2 p k) :=
  (Cert.LibLayoutCols.broadcastTo_a1_ab_apply _ hb p q).trans
    ((Cert.LibLayoutCols.shapeCast_a_a1_apply _ hc p 0).trans (sum_axis1_apply src h hφ hacc p))

/-- The column sums kept as a row and laid along every row of an `[n, b]` matrix: entry `(p, q)` is the sum of column `q`. -/
theorem colSums_bcast_apply {a b n : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32)
    (hc : (⟨1, ![b]⟩ : Shape).ShapeCasts ⟨2, ![1, b]⟩) (hb : (⟨2, ![1, b]⟩ : Shape).Broadcasts ⟨2, ![n, b]⟩)
    (p : Fin n) (q : Fin b) :
    broadcastTo ⟨2, ![n, b]⟩ (shapeCast ⟨2, ![1, b]⟩ (multiReduction .add [0] ⟨1, ![b]⟩ src 0x00000000#32 h hφ hacc) hc) hb (ix2 p q)
      = ∑ k : Fin a, src (ix2 k q) :=
  (broadcastTo_1b_ab_apply _ hb p q).trans
    ((shapeCast_a_1a_apply _ hc 0 q).trans (sum_axis0_apply src h hφ hacc q))

end Ops

/-! ## The kernel's matrix product read at an index -/

section MatMul

/-- The kernel's contraction: rows of the left operand against columns of the right one. -/
abbrev dotK := Cert.KernelIdeal.dot_S1024x128_S128x1024_S1024x1024_1_0_0_1_n_n

theorem dotK_lhs_0 (i : Cert.KernelIdeal.S1024x1024.Idx) (c : dotK.contr.Idx) : (dotK.lhsIdx i c 0).val = (i 0).val := by
  unfold DotDims.lhsIdx
  rw [dif_neg (show ¬(0 : Fin Cert.KernelIdeal.S1024x128.rank) ∈ dotK.lhsBatch by decide),
    dif_pos (show (0 : Fin Cert.KernelIdeal.S1024x128.rank) ∈ dotK.lhsNonContracting by decide)]
  rfl
theorem dotK_lhs_1 (i : Cert.KernelIdeal.S1024x1024.Idx) (c : dotK.contr.Idx) :
    (dotK.lhsIdx i c 1).val = (c ⟨0, by decide⟩).val :=
  dotK.lhsIdx_val_of_single rfl i c
theorem dotK_rhs_0 (i : Cert.KernelIdeal.S1024x1024.Idx) (c : dotK.contr.Idx) :
    (dotK.rhsIdx i c 0).val = (c ⟨0, by decide⟩).val :=
  dotK.rhsIdx_val_of_single rfl i c
theorem dotK_rhs_1 (i : Cert.KernelIdeal.S1024x1024.Idx) (c : dotK.contr.Idx) : (dotK.rhsIdx i c 1).val = (i 1).val := by
  unfold DotDims.rhsIdx
  rw [dif_neg (show ¬(1 : Fin Cert.KernelIdeal.S128x1024.rank) ∈ dotK.rhsBatch by decide),
    dif_pos (show (1 : Fin Cert.KernelIdeal.S128x1024.rank) ∈ dotK.rhsNonContracting by decide)]
  rfl

/-- The product accumulated into a zero splat: entry `(p, q)` is the sum over `k` of row `p` of the left operand times
    column `q` of the right one. -/
theorem matmulK_apply {φ₁ φ₂ : FTy} (lhs : FVec Ideal Cert.KernelIdeal.S1024x128 φ₁) (rhs : FVec Ideal Cert.KernelIdeal.S128x1024 φ₂)
    (p q : Fin 1024) :
    matmul dotK none lhs rhs (constant Cert.KernelIdeal.S1024x1024 .f32 0x00000000#32) (ix2 p q)
      = ∑ k : Fin 128, lhs (ix2 p k) * rhs (ix2 k q) := by
  refine (Ideal.matmul_constant_zero_apply dotK none lhs rhs (ix2 p q)).trans ?_
  rw [← Equiv.sum_comp (contrEquiv1 dotK 128 rfl rfl).symm]
  refine Finset.sum_congr rfl fun k _ => ?_
  have hk := contrEquiv1_symm_val dotK 128 rfl rfl k
  have el : dotK.lhsIdx (ix2 p q) ((contrEquiv1 dotK 128 rfl rfl).symm k) = ix2 p k := funext fun a => Fin.ext (by
    match a with
    | ⟨0, _⟩ => exact dotK_lhs_0 _ _
    | ⟨1, _⟩ => exact (dotK_lhs_1 _ _).trans hk)
  have er : dotK.rhsIdx (ix2 p q) ((contrEquiv1 dotK 128 rfl rfl).symm k) = ix2 k q := funext fun a => Fin.ext (by
    match a with
    | ⟨0, _⟩ => exact (dotK_rhs_0 _ _).trans hk
    | ⟨1, _⟩ => exact dotK_rhs_1 _ _)
  rw [el, er]

end MatMul

/-! ## One element's term, and the kernel's payload at an index -/

section Term

/-- The distance factor of one pair: the square root of the clamped squared distance, or of one where the pair is masked. -/
def pairDist (m : BitVec 1) (n1 n2 dt : EReal) : EReal :=
  Ideal.sqrt (Scalar.select m (max (n1 + n2 - Ideal.ofBits .f32 0x40000000#32 * dt) 0) (Ideal.ofBits .f32 0x3F800000#32))

/-- One pair's term from its count `a`, the two squared norms `n1`, `n2` and the inner product `dt`. -/
def pairTerm (a n1 n2 dt : EReal) : EReal :=
  Scalar.select (Ideal.cmp .one a 0)
    ((-a) * pairDist (Ideal.cmp .one a 0) n1 n2 dt - Ideal.exp (-(pairDist (Ideal.cmp .one a 0) n1 n2 dt))) 0

theorem sqrtv_apply {s : Shape} {φ : FTy} (a : FVec Ideal s φ) (i : s.Idx) : sqrt a i = Ideal.sqrt (a i) := rfl
theorem expv_apply {s : Shape} {φ : FTy} (a : FVec Ideal s φ) (i : s.Idx) : exp a i = Ideal.exp (a i) := rfl
theorem ofBitsS (φ : FTy) (b : BitVec φ.bits) : Scalar.ofBits (F := Ideal) φ b = Ideal.ofBits φ b := rfl

open Cert.KernelIdeal Cert.KernelIdeal.Gen in
theorem kernel_term_apply (x1 : Vec Ideal Cert.KernelIdeal.S1024x128 .f32) (x2 : Vec Ideal Cert.KernelIdeal.S128x1024 .f32)
    (x0 : Vec Ideal Cert.KernelIdeal.S1024x1024 .f32) (p q : Fin 1024) :
    Scalar.select (k0_pay3 x0 (ix2 p q)) (k0_pay4 x1 x2 x0 (ix2 p q)) (Scalar.ofBits (F := Ideal) .f32 0x00000000#32)
      = pairTerm (x0 (ix2 p q)) (∑ k : Fin 128, x1 (ix2 p k) * x1 (ix2 p k)) (∑ k : Fin 128, x2 (ix2 k q) * x2 (ix2 k q))
          (∑ k : Fin 128, x1 (ix2 p k) * x2 (ix2 k q)) := by
  have e10 := matmulK_apply (truncf .bf16 x1 bitsLt_bf16_f32)
    (truncf .bf16 (shapeCast S128x1024 x2 shapeCasts_S128x1024_S128x1024) bitsLt_bf16_f32) p q
  have e17 := rowSums_bcast_apply (n := 1024) (mulf x1 x1) reduces_S1024x128_S1024 (.inl rfl) rfl
    shapeCasts_S1024_S1024x1 broadcasts_S1024x1_S1024x1024 p q
  have e18 := colSums_bcast_apply (n := 1024)
    (mulf (shapeCast S128x1024 x2 shapeCasts_S128x1024_S128x1024) (shapeCast S128x1024 x2 shapeCasts_S128x1024_S128x1024))
    reduces_S128x1024_S1024 (.inl rfl) rfl shapeCasts_S1024_S1x1024 broadcasts_S1x1024_S1024x1024 p q
  simp only [shapeCast_self, truncf_apply, mulf_apply] at e10 e17 e18
  unfold k0_pay4 k0_pay3
  simp only [shapeCast_self, select_apply, subf_apply, mulf_apply, addf_apply, maximumf_apply, cmpf_apply, broadcast_apply,
    sqrtv_apply, expv_apply, ofBitsS, Ideal.cmpf_def]
  rw [e10, e17, e18]
  unfold pairTerm pairDist
  simp only [Ideal.ofBits_zero_f32, zero_sub]

end Term

/-! ## The reference's stage at an index -/

section Reference

/-- Among the extended reals nothing is unordered: "unordered or unequal" is "ordered and unequal". -/
theorem cmp_une_eq_one (x y : EReal) : Ideal.cmp .une x y = Ideal.cmp .one x y := rfl

open Cert.ReferenceIdeal Cert.ReferenceIdeal.Read in
theorem ref_rowNorm_apply (A4 : FVec Ideal Cert.ReferenceIdeal.S4096x128 .f32) (r : Fin 4096) :
    val_main_v41 (F := Ideal) A4 (ix1 r) = ∑ k : Fin 128, A4 (ix2 r k) * A4 (ix2 r k) := by
  rw [val_main_v41_apply, val_main_cst_9_apply, Ideal.ofBits_def, Ideal.ofBits_zero_f32, zero_add]
  refine Finset.sum_congr rfl fun k _ => ?_
  rw [val_main_v40_apply]
  have e : idx_main_v41 (ix1 r) k = ix2 r k := funext fun a => by
    match a with
    | ⟨0, _⟩ => rfl
    | ⟨1, _⟩ => rfl
  rw [e]
  rfl

open Cert.ReferenceIdeal Cert.ReferenceIdeal.Read in
theorem ref_term_apply (A0 : FVec Ideal Cert.ReferenceIdeal.S4096x4096 .f32) (A4 : FVec Ideal Cert.ReferenceIdeal.S4096x128 .f32)
    (r c : Fin 4096) :
    val_main_v63 (F := Ideal) A0 A4 (ix2 r c)
      = pairTerm (A0 (ix2 r c)) (∑ k : Fin 128, A4 (ix2 r k) * A4 (ix2 r k)) (∑ k : Fin 128, A4 (ix2 c k) * A4 (ix2 c k))
          (∑ k : Fin 128, A4 (ix2 r k) * A4 (ix2 c k)) := by
  have e44 : val_main_v44 (F := Ideal) A4 (ix2 r c) = ∑ k : Fin 128, A4 (ix2 r k) * A4 (ix2 r k) := by
    rw [val_main_v44_apply, val_main_v42_apply]
    have e : idx_main_v42 (idx_main_v44 (ix2 r c)) = ix1 r := funext fun a => by
      match a with
      | ⟨0, _⟩ => rfl
    rw [e]
    exact ref_rowNorm_apply A4 r
  have e45 : val_main_v45 (F := Ideal) A4 (ix2 r c) = ∑ k : Fin 128, A4 (ix2 c k) * A4 (ix2 c k) := by
    rw [val_main_v45_apply, val_main_v43_apply]
    have e : idx_main_v43 (idx_main_v45 (ix2 r c)) = ix1 c := funext fun a => by
      match a with
      | ⟨0, _⟩ => rfl
    rw [e]
    exact ref_rowNorm_apply A4 c
  have e48 : val_main_v48 (F := Ideal) A4 (ix2 r c) = ∑ k : Fin 128, A4 (ix2 r k) * A4 (ix2 c k) := by
    rw [val_main_v48_apply]
    refine Finset.sum_congr rfl fun k _ => ?_
    rw [val_main_v47_apply]
    have el : lidx_main_v48 (ix2 r c) k = ix2 r k := funext fun a => by
      match a with
      | ⟨0, _⟩ => rfl
      | ⟨1, _⟩ => rfl
    have er : idx_main_v47 (ridx_main_v48 (ix2 r c) k) = ix2 c k := funext fun a => by
      match a with
      | ⟨0, _⟩ => rfl
      | ⟨1, _⟩ => rfl
    rw [el, er]
  rw [val_main_v63_apply, val_main_v62_apply, val_main_v61_apply, val_main_v60_apply, val_main_v59_apply, val_main_v58_apply,
    val_main_v57_apply, val_main_v56_apply, val_main_v55_apply, val_main_v53_apply, val_main_v51_apply, val_main_v50_apply,
    val_main_v46_apply, e44, e45, e48]
  rw [val_main_v54_apply, val_main_cst_12_apply, val_main_v49_apply, val_main_cst_10_apply, val_main_v52_apply,
    val_main_cst_11_apply, val_main_call1_v1_apply, val_main_call1_v0_apply, val_main_cst_13_apply,
    val_main_call2_v1_apply, val_main_call2_v0_apply, val_main_cst_14_apply]
  unfold pairTerm pairDist
  simp only [Ideal.ofBits_def, Ideal.cmpf_def, Ideal.subf_def, Ideal.mulf_def, Ideal.addf_def, Ideal.maximumf_def,
    Ideal.hostUnary_sqrt_def, Ideal.hostUnary_exp_def, Ideal.hostNegf_def, Ideal.negf_def, Ideal.ofBits_zero_f32,
    cmp_une_eq_one]

end Reference

/-! ## The kernel's accumulation, and the block's equation -/

section Total

open Cert.KernelIdeal Cert.KernelIdeal.Gen in
/-- The stored value: the accumulator plus the sum, over the block's rows and then its columns, of the selected terms. -/
theorem kernel_total_apply (v27 : IVec Cert.KernelIdeal.S1024x1024 1) (v37 : FVec Ideal Cert.KernelIdeal.S1024x1024 .f32)
    (c : Ideal .f32) (acc : Vec Ideal Cert.KernelIdeal.S1x1 .f32) (j : Cert.KernelIdeal.S1x1.Idx) :
    k0_pay1 v27 v37 c acc j
      = acc j + ∑ p : Fin 1024, ∑ q : Fin 1024, Scalar.select (v27 (ix2 p q)) (v37 (ix2 p q)) c := by
  obtain ⟨u, w, rfl⟩ : ∃ (u : Fin 1) (w : Fin 1), j = ix2 u w := ⟨j 0, j 1, eq_ix2 j⟩
  unfold k0_pay1
  simp only [shapeCast_self]
  refine congrArg (acc (ix2 u w) + ·) ?_
  refine (shapeCast_a_1a_apply _ shapeCasts_S1_S1x1 u w).trans ?_
  refine (sum_axis0_apply (a := 1024) (b := 1) _ reduces_S1024x1_S1 (.inl rfl) rfl w).trans ?_
  refine Finset.sum_congr rfl fun p _ => ?_
  refine (Cert.LibLayoutCols.shapeCast_a_a1_apply _ shapeCasts_S1024_S1024x1 p w).trans ?_
  refine (sum_axis1_apply _ reduces_S1024x1024_S1024 (.inl rfl) rfl p).trans ?_
  rfl

/-- One block of the grid: the kernel's stored value is the accumulator plus the sum of the reference's terms over the
    block's rows and columns of the whole array. -/
theorem tile_eq
    (A0 : FVec Ideal Cert.ReferenceIdeal.S4096x4096 .f32) (A4 : FVec Ideal Cert.ReferenceIdeal.S4096x128 .f32) (ti tj : Fin 4)
    (x0 : Vec Ideal Cert.KernelIdeal.S1024x1024 .f32) (x1 : Vec Ideal Cert.KernelIdeal.S1024x128 .f32) (x2 : Vec Ideal Cert.KernelIdeal.S128x1024 .f32)
    (h0 : ∀ (p q : Fin 1024), x0 (ix2 p q) = A0 (ix2 (rowT ti p) (rowT tj q)))
    (h1 : ∀ (p : Fin 1024) (k : Fin 128), x1 (ix2 p k) = A4 (ix2 (rowT ti p) k))
    (h2 : ∀ (k : Fin 128) (q : Fin 1024), x2 (ix2 k q) = A4 (ix2 (rowT tj q) k))
    (acc : Vec Ideal Cert.KernelIdeal.S1x1 .f32) (j : Cert.KernelIdeal.S1x1.Idx) :
    Cert.KernelIdeal.Gen.k0_pay1 (F := Ideal) (Cert.KernelIdeal.Gen.k0_pay3 x0) (Cert.KernelIdeal.Gen.k0_pay4 x1 x2 x0) (Scalar.ofBits .f32 0x00000000#32) acc j
      = acc j + ∑ p : Fin 1024, ∑ q : Fin 1024, Cert.ReferenceIdeal.Read.val_main_v63 (F := Ideal) A0 A4 (ix2 (rowT ti p) (rowT tj q)) := by
  refine (kernel_total_apply _ _ _ acc j).trans ?_
  refine congrArg (acc j + ·) (Finset.sum_congr rfl fun p _ => Finset.sum_congr rfl fun q _ => ?_)
  rw [kernel_term_apply, ref_term_apply, h0 p q]
  simp only [h1, h2]

end Total

end Cert.Bridge

end
-- ==== Proof.lean ====
/-
  The pairwise-distance loss kernel against its jnp reference.

  Both programs compute  delta · supervised + (1 − delta) · unsupervised.  The supervised term (a scatter-add of read
  counts, two matrix products, a log-softmax and a gather) is the same chain of host operations in both.  The unsupervised
  term is −(Σ term) · 2⁻²⁴ with  term[i, j] = where(pair_counts[i, j] ≠ 0, −pair_counts[i, j] · d − exp(−d), 0),
  d = sqrt(where(pair_counts[i, j] ≠ 0, max(|embs_i|² + |embs_j|² − 2·⟨embs_i, embs_j⟩, 0), 1)).  The reference sums the whole
  4096 × 4096 array at once; the kernel walks a 4 × 4 grid of 1024 × 1024 blocks, adding each block's sum (a lane sum per row,
  then a sum over rows) into a 1 × 1 accumulator that is reset at the first block and copied out at the last.  Over the
  extended reals addition is commutative and associative, a change of float format is the identity, and the matrix unit's
  product into a zero accumulator is the host's dot product, so the sixteen block sums add up to the reference's total:
  the two results are equal whatever the inputs hold, and the precondition is not used.

  The three frames: each kernel program (the word-level one and its exact reading) runs its grid point by point, the
  accumulator carried from one point to the next, and its host lines write fresh buffers only; the reference is a
  straight line of host operations.  The exact reading is the printed program's own text (nothing was rewritten), so
  there is nothing to preserve.
-/
import proofs.«141310_j14559939134042_1_alg».proof.Defs
import proofs.«141310_j14559939134042_1_alg».proof.Proof.Gen.Kernel
import proofs.«141310_j14559939134042_1_alg».proof.Proof.Gen.KernelIdeal
import proofs.«141310_j14559939134042_1_alg».proof.Proof.Gen.ReferenceIdeal
import proofs.«141310_j14559939134042_1_alg».proof.Proof.Gen.Pre_finite_inputs
import proofs.«141310_j14559939134042_1_alg».proof.Proof.K.Frame
import proofs.«141310_j14559939134042_1_alg».proof.Proof.KI.Final
import proofs.«141310_j14559939134042_1_alg».proof.Proof.TileTerm
import proofs.«141310_j14559939134042_1_alg».proof.Proof.RefRun
import proofs.«141310_j14559939134042_1_alg».proof.Proof.RefRead

noncomputable section

namespace Cert.Proof

open Idealize.ShloMosaic Idealize.ShloMosaic.TcCoe Idealize.SL.Sem

/-- The word-level kernel program runs to the end and leaves its arguments as launched. -/
theorem frame_p : Cert.frame_Kernel := fun m ρ _ => Cert.Kernel.Fr.frame m ρ

/-- So does its exact reading. -/
theorem frame_pi : Cert.frame_KernelIdeal := fun m ρ _ => Cert.KernelIdeal.Fr.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its exact reading. -/
theorem preserves : Cert.preserves_Kernel_KernelIdeal := trivial

/-- From memories agreeing on the six arguments both programs end with the same scalar: the kernel's host lines after the grid
    apply the reference's own last stages to the same arguments and to the kernel's 1 × 1 result, which is the reference's total. -/
theorem algebraic : Cert.algebraic_KernelIdeal_ReferenceIdeal := by
  intro m ρ m' ρ' _ hagree
  refine ⟨fun c => Pipeline.afterTail₀ Cert.KernelIdeal.cfgs (Cert.KernelIdeal.Fr.dats m) 0 (Cert.KernelIdeal.Fr.V0 m)
      Cert.KernelIdeal.Fr.tailOps c Cert.KernelIdeal.main_v48, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, (hagree c).1, (hagree c).2.1, (hagree c).2.2.1, (hagree c).2.2.2.1,
    (hagree c).2.2.2.2.1, (hagree c).2.2.2.2.2]
  exact (Cert.KernelIdeal.Fr.value m
    (fun A0 A4 ti tj x0 x1 x2 h0 h1 h2 acc j => Cert.Bridge.tile_eq A0 A4 ti tj x0 x1 x2 h0 h1 h2 acc j) c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
